-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v38) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S50000x128 : Shape := ⟨2, ![50000, 128]⟩
abbrev S10000x128 : Shape := ⟨2, ![10000, 128]⟩
abbrev S300000 : Shape := ⟨1, ![300000]⟩
abbrev S500000 : Shape := ⟨1, ![500000]⟩
abbrev S100000 : Shape := ⟨1, ![100000]⟩
abbrev S128x128 : Shape := ⟨2, ![128, 128]⟩
abbrev S128 : Shape := ⟨1, ![128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg13 : FVec F S128x128 .f32) (main_arg14 : FVec F S128 .f32) (main_v33 : IVec S_ 1) : IVec S_ 1 :=
  let main_v34 : FVec F S128x128 .f32 := Host.absf main_arg13
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg14
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg10 : FVec F S128 .f32) (main_arg11 : FVec F S128x128 .f32) (main_arg12 : FVec F S128 .f32) (main_arg13 : FVec F S128x128 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg10
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg11
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg12
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg13 main_arg14 main_v33

def fn {F : FTy → Type} [FloatOps F] (main_arg0 : FVec F S20000x128 .f32) (main_arg1 : FVec F S50000x128 .f32) (main_arg2 : FVec F S10000x128 .f32) (main_arg3 : IVec S300000 32) (main_arg4 : IVec S300000 32) (main_arg5 : IVec S500000 32) (main_arg6 : IVec S500000 32) (main_arg7 : IVec S100000 32) (main_arg8 : IVec S100000 32) (main_arg9 : FVec F S128x128 .f32) (main_arg10 : FVec F S128 .f32) (main_arg11 : FVec F S128x128 .f32) (main_arg12 : FVec F S128 .f32) (main_arg13 : FVec F S128x128 .f32) (main_arg14 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S128x128 .f32 := Host.absf main_arg9
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg10 main_arg11 main_arg12 main_arg13 main_arg14 main_v13 main_v16
-- ==== Kernel.lean ====
abbrev S20000x128 : Shape := ⟨2, ![20000, 128]⟩
abbrev S50000x128 : Shape := ⟨2, ![50000, 128]⟩
abbrev S10000x128 : Shape := ⟨2, ![10000, 128]⟩
abbrev S300000 : Shape := ⟨1, ![300000]⟩
abbrev S500000 : Shape := ⟨1, ![500000]⟩
abbrev S100000 : Shape := ⟨1, ![100000]⟩
abbrev S128x128 : Shape := ⟨2, ![128, 128]⟩
abbrev S128 : Shape := ⟨1, ![128]⟩
abbrev S2000x128 : Shape := ⟨2, ![2000, 128]⟩
abbrev S_ : Shape := ⟨0, ![]⟩
abbrev S300000x1 : Shape := ⟨2, ![300000, 1]⟩
abbrev S300000x128 : Shape := ⟨2, ![300000, 128]⟩
abbrev S1x128 : Shape := ⟨2, ![1, 128]⟩
abbrev S500000x1 : Shape := ⟨2, ![500000, 1]⟩
abbrev S500000x128 : Shape := ⟨2, ![500000, 128]⟩
abbrev S100000x1 : Shape := ⟨2, ![100000, 1]⟩
abbrev S100000x128 : Shape := ⟨2, ![100000, 128]⟩

abbrev nBuf : Space → Nat
  | .hbm => 63
  | .vmem => 36
  | .smem => 0
  | _ => 0

abbrev bufTy : (tb : Table) → Fin (tcTables nBuf tb) → BufTy
  | .hbm, ⟨0, _⟩ => ⟨S20000x128, .f32⟩
  | .hbm, ⟨1, _⟩ => ⟨S50000x128, .f32⟩
  | .hbm, ⟨2, _⟩ => ⟨S10000x128, .f32⟩
  | .hbm, ⟨3, _⟩ => ⟨S300000, .i32⟩
  | .hbm, ⟨4, _⟩ => ⟨S300000, .i32⟩
  | .hbm, ⟨5, _⟩ => ⟨S500000, .i32⟩
  | .hbm, ⟨6, _⟩ => ⟨S500000, .i32⟩
  | .hbm, ⟨7, _⟩ => ⟨S100000, .i32⟩
  | .hbm, ⟨8, _⟩ => ⟨S100000, .i32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S20000x128, .f32⟩
  | .hbm, ⟨16, _⟩ => ⟨S_, .i32⟩
  | .hbm, ⟨17, _⟩ => ⟨S300000, .i32⟩
  | .hbm, ⟨18, _⟩ => ⟨S300000, .i1⟩
  | .hbm, ⟨19, _⟩ => ⟨S_, .i32⟩
  | .hbm, ⟨20, _⟩ => ⟨S300000, .i32⟩
  | .hbm, ⟨21, _⟩ => ⟨S300000, .i32⟩
  | .hbm, ⟨22, _⟩ => ⟨S300000, .i32⟩
  | .hbm, ⟨23, _⟩ => ⟨S300000x1, .i32⟩
  | .hbm, ⟨24, _⟩ => ⟨S300000x128, .f32⟩
  | .hbm, ⟨25, _⟩ => ⟨S_, .f32⟩
  | .hbm, ⟨26, _⟩ => ⟨S20000x128, .f32⟩
  | .hbm, ⟨27, _⟩ => ⟨S300000x1, .i32⟩
  | .hbm, ⟨28, _⟩ => ⟨S20000x128, .f32⟩
  | .hbm, ⟨29, _⟩ => ⟨S1x128, .f32⟩
  | .hbm, ⟨30, _⟩ => ⟨S20000x128, .f32⟩
  | .hbm, ⟨31, _⟩ => ⟨S50000x128, .f32⟩
  | .hbm, ⟨32, _⟩ => ⟨S_, .i32⟩
  | .hbm, ⟨33, _⟩ => ⟨S500000, .i32⟩
  | .hbm, ⟨34, _⟩ => ⟨S500000, .i1⟩
  | .hbm, ⟨35, _⟩ => ⟨S_, .i32⟩
  | .hbm, ⟨36, _⟩ => ⟨S500000, .i32⟩
  | .hbm, ⟨37, _⟩ => ⟨S500000, .i32⟩
  | .hbm, ⟨38, _⟩ => ⟨S500000, .i32⟩
  | .hbm, ⟨39, _⟩ => ⟨S500000x1, .i32⟩
  | .hbm, ⟨40, _⟩ => ⟨S500000x128, .f32⟩
  | .hbm, ⟨41, _⟩ => ⟨S_, .f32⟩
  | .hbm, ⟨42, _⟩ => ⟨S50000x128, .f32⟩
  | .hbm, ⟨43, _⟩ => ⟨S500000x1, .i32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S10000x128, .f32⟩
  | .hbm, ⟨48, _⟩ => ⟨S_, .i32⟩
  | .hbm, ⟨49, _⟩ => ⟨S100000, .i32⟩
  | .hbm, ⟨50, _⟩ => ⟨S100000, .i1⟩
  | .hbm, ⟨51, _⟩ => ⟨S_, .i32⟩
  | .hbm, ⟨52, _⟩ => ⟨S100000, .i32⟩
  | .hbm, ⟨53, _⟩ => ⟨S100000, .i32⟩
  | .hbm, ⟨54, _⟩ => ⟨S100000, .i32⟩
  | .hbm, ⟨55, _⟩ => ⟨S100000x1, .i32⟩
  | .hbm, ⟨56, _⟩ => ⟨S100000x128, .f32⟩
  | .hbm, ⟨57, _⟩ => ⟨S_, .f32⟩
  | .hbm, ⟨58, _⟩ => ⟨S10000x128, .f32⟩
  | .hbm, ⟨59, _⟩ => ⟨S100000x1, .i32⟩
  | .hbm, ⟨60, _⟩ => ⟨S10000x128, .f32⟩
  | .hbm, ⟨61, _⟩ => ⟨S1x128, .f32⟩
  | .hbm, ⟨62, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_4 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S300000 : S_.BroadcastsInDim S300000 (![] : Fin 0 → Fin S300000.rank)
  bcast_S300000_S300000x1_0 : S300000.BroadcastsInDim S300000x1 (![0] : Fin 1 → Fin S300000x1.rank)
  bcast_S_S20000x128 : S_.BroadcastsInDim S20000x128 (![] : Fin 0 → Fin S20000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S10000x128 : S_.BroadcastsInDim S10000x128 (![] : Fin 0 → Fin S10000x128.rank)
  dot_S2000x128_S128x128_S2000x128_1_0_0_1_n_n_wf : DotDims.WF S2000x128 S128x128 S2000x128 [1] [0] [0] [1] [] []
  gather_S20000x128_S300000x1_S300000x128_1_0_n_n_0_1_1128_wf : GatherDims.WF S20000x128 S300000x1 S300000x128 [1] [0] [] [0] [] 1 ![1, 128]
  scatter_S20000x128_S300000x1_S300000x128_1_0_0_1_wf : ScatterDims.WF S20000x128 S300000x1 S300000x128 [1] [0] [0] 1
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  gather_S10000x128_S100000x1_S100000x128_1_0_n_n_0_1_1128_wf : GatherDims.WF S10000x128 S100000x1 S100000x128 [1] [0] [] [0] [] 1 ![1, 128]
  scatter_S10000x128_S100000x1_S100000x128_1_0_0_1_wf : ScatterDims.WF S10000x128 S100000x1 S100000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S20000x128.size a
  hwx0_2 : ∀ i : grid0.Coords, EltTy.bits .f32 = 32 ∨ (Rect.block (s := S20000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S20000x128.size a
  hwx1_1 : ∀ i : grid1.Coords, EltTy.bits .f32 = 32 ∨ (Rect.block (s := S20000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S20000x128.size a
  hwx1_3 : ∀ i : grid1.Coords, EltTy.bits .f32 = 32 ∨ (Rect.block (s := S20000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S10000x128.size a
  hwx4_0 : ∀ i : grid4.Coords, EltTy.bits .f32 = 32 ∨ (Rect.block (s := S10000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S10000x128.size a
  hwx4_2 : ∀ i : grid4.Coords, EltTy.bits .f32 = 32 ∨ (Rect.block (s := S10000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S10000x128.size a
  hwx5_0 : ∀ i : grid5.Coords, EltTy.bits .f32 = 32 ∨ (Rect.block (s := S10000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S10000x128.size a
  hwx5_1 : ∀ i : grid5.Coords, EltTy.bits .f32 = 32 ∨ (Rect.block (s := S10000x128) S2000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S10000x128.size a
  hwx5_3 : ∀ i : grid5.Coords, EltTy.bits .f32 = 32 ∨ (Rect.block (s := S10000x128) S2000x128.size (cc5_transform_3 i) (hinb5_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S20000x128_S300000x1_S300000x128_1_0_n_n_0_1_1128 : GatherDims S20000x128 S300000x1 S300000x128 where
  offsetDims := [1]
  collapsedSliceDims := [0]
  operandBatchingDims := []
  startIndicesBatchingDims := []
  startIndexMap := [0]
  indexVectorDim := 1
  sliceSizes := ![1, 128]
  wf := gather_S20000x128_S300000x1_S300000x128_1_0_n_n_0_1_1128_wf
def scatter_S20000x128_S300000x1_S300000x128_1_0_0_1 : ScatterDims S20000x128 S300000x1 S300000x128 where
  updateWindowDims := [1]
  insertedWindowDims := [0]
  scatterDimsToOperandDims := [0]
  indexVectorDim := 1
  wf := scatter_S20000x128_S300000x1_S300000x128_1_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def gather_S10000x128_S100000x1_S100000x128_1_0_n_n_0_1_1128 : GatherDims S10000x128 S100000x1 S100000x128 where
  offsetDims := [1]
  collapsedSliceDims := [0]
  operandBatchingDims := []
  startIndicesBatchingDims := []
  startIndexMap := [0]
  indexVectorDim := 1
  sliceSizes := ![1, 128]
  wf := gather_S10000x128_S100000x1_S100000x128_1_0_n_n_0_1_1128_wf
def scatter_S10000x128_S100000x1_S100000x128_1_0_0_1 : ScatterDims S10000x128 S100000x1 S100000x128 where
  updateWindowDims := [1]
  insertedWindowDims := [0]
  scatterDimsToOperandDims := [0]
  indexVectorDim := 1
  wf := scatter_S10000x128_S100000x1_S100000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v23) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v24) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v25) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg2) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v26) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v36) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg2) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v37) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v38) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S20000x128 : Shape := ⟨2, ![20000, 128]⟩
abbrev S50000x128 : Shape := ⟨2, ![50000, 128]⟩
abbrev S10000x128 : Shape := ⟨2, ![10000, 128]⟩
abbrev S300000 : Shape := ⟨1, ![300000]⟩
abbrev S500000 : Shape := ⟨1, ![500000]⟩
abbrev S100000 : Shape := ⟨1, ![100000]⟩
abbrev S128x128 : Shape := ⟨2, ![128, 128]⟩
abbrev S128 : Shape := ⟨1, ![128]⟩
abbrev S_ : Shape := ⟨0, ![]⟩
abbrev S300000x1 : Shape := ⟨2, ![300000, 1]⟩
abbrev S300000x128 : Shape := ⟨2, ![300000, 128]⟩
abbrev S1x128 : Shape := ⟨2, ![1, 128]⟩
abbrev S500000x1 : Shape := ⟨2, ![500000, 1]⟩
abbrev S500000x128 : Shape := ⟨2, ![500000, 128]⟩
abbrev S100000x1 : Shape := ⟨2, ![100000, 1]⟩
abbrev S100000x128 : Shape := ⟨2, ![100000, 128]⟩

abbrev nBuf : Space → Nat
  | .hbm => 78
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S50000x128, .f32⟩
  | .hbm, ⟨2, _⟩ => ⟨S10000x128, .f32⟩
  | .hbm, ⟨3, _⟩ => ⟨S300000, .i32⟩
  | .hbm, ⟨4, _⟩ => ⟨S300000, .i32⟩
  | .hbm, ⟨5, _⟩ => ⟨S500000, .i32⟩
  | .hbm, ⟨6, _⟩ => ⟨S500000, .i32⟩
  | .hbm, ⟨7, _⟩ => ⟨S100000, .i32⟩
  | .hbm, ⟨8, _⟩ => ⟨S100000, .i32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S20000x128, .f32⟩
  | .hbm, ⟨16, _⟩ => ⟨S_, .i32⟩
  | .hbm, ⟨17, _⟩ => ⟨S300000, .i32⟩
  | .hbm, ⟨18, _⟩ => ⟨S300000, .i1⟩
  | .hbm, ⟨19, _⟩ => ⟨S_, .i32⟩
  | .hbm, ⟨20, _⟩ => ⟨S300000, .i32⟩
  | .hbm, ⟨21, _⟩ => ⟨S300000, .i32⟩
  | .hbm, ⟨22, _⟩ => ⟨S300000, .i32⟩
  | .hbm, ⟨23, _⟩ => ⟨S300000x1, .i32⟩
  | .hbm, ⟨24, _⟩ => ⟨S300000x128, .f32⟩
  | .hbm, ⟨25, _⟩ => ⟨S_, .f32⟩
  | .hbm, ⟨26, _⟩ => ⟨S20000x128, .f32⟩
  | .hbm, ⟨27, _⟩ => ⟨S300000x1, .i32⟩
  | .hbm, ⟨28, _⟩ => ⟨S20000x128, .f32⟩
  | .hbm, ⟨29, _⟩ => ⟨S1x128, .f32⟩
  | .hbm, ⟨30, _⟩ => ⟨S20000x128, .f32⟩
  | .hbm, ⟨31, _⟩ => ⟨S20000x128, .f32⟩
  | .hbm, ⟨32, _⟩ => ⟨S_, .f32⟩
  | .hbm, ⟨33, _⟩ => ⟨S20000x128, .f32⟩
  | .hbm, ⟨34, _⟩ => ⟨S20000x128, .f32⟩
  | .hbm, ⟨35, _⟩ => ⟨S20000x128, .f32⟩
  | .hbm, ⟨36, _⟩ => ⟨S50000x128, .f32⟩
  | .hbm, ⟨37, _⟩ => ⟨S_, .i32⟩
  | .hbm, ⟨38, _⟩ => ⟨S500000, .i32⟩
  | .hbm, ⟨39, _⟩ => ⟨S500000, .i1⟩
  | .hbm, ⟨40, _⟩ => ⟨S_, .i32⟩
  | .hbm, ⟨41, _⟩ => ⟨S500000, .i32⟩
  | .hbm, ⟨42, _⟩ => ⟨S500000, .i32⟩
  | .hbm, ⟨43, _⟩ => ⟨S500000, .i32⟩
  | .hbm, ⟨44, _⟩ => ⟨S500000x1, .i32⟩
  | .hbm, ⟨45, _⟩ => ⟨S500000x128, .f32⟩
  | .hbm, ⟨46, _⟩ => ⟨S_, .f32⟩
  | .hbm, ⟨47, _⟩ => ⟨S50000x128, .f32⟩
  | .hbm, ⟨48, _⟩ => ⟨S500000x1, .i32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S10000x128, .f32⟩
  | .hbm, ⟨58, _⟩ => ⟨S_, .i32⟩
  | .hbm, ⟨59, _⟩ => ⟨S100000, .i32⟩
  | .hbm, ⟨60, _⟩ => ⟨S100000, .i1⟩
  | .hbm, ⟨61, _⟩ => ⟨S_, .i32⟩
  | .hbm, ⟨62, _⟩ => ⟨S100000, .i32⟩
  | .hbm, ⟨63, _⟩ => ⟨S100000, .i32⟩
  | .hbm, ⟨64, _⟩ => ⟨S100000, .i32⟩
  | .hbm, ⟨65, _⟩ => ⟨S100000x1, .i32⟩
  | .hbm, ⟨66, _⟩ => ⟨S100000x128, .f32⟩
  | .hbm, ⟨67, _⟩ => ⟨S_, .f32⟩
  | .hbm, ⟨68, _⟩ => ⟨S10000x128, .f32⟩
  | .hbm, ⟨69, _⟩ => ⟨S100000x1, .i32⟩
  | .hbm, ⟨70, _⟩ => ⟨S10000x128, .f32⟩
  | .hbm, ⟨71, _⟩ => ⟨S1x128, .f32⟩
  | .hbm, ⟨72, _⟩ => ⟨S10000x128, .f32⟩
  | .hbm, ⟨73, _⟩ => ⟨S10000x128, .f32⟩
  | .hbm, ⟨74, _⟩ => ⟨S_, .f32⟩
  | .hbm, ⟨75, _⟩ => ⟨S10000x128, .f32⟩
  | .hbm, ⟨76, _⟩ => ⟨S10000x128, .f32⟩
  | .hbm, ⟨77, _⟩ => ⟨S10000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call0_cst : Ref sig .tc := ⟨.hbm, 32, rfl⟩
abbrev main_call0_v0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_1 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_cst : Ref sig .tc := ⟨.hbm, 53, rfl⟩
abbrev main_call1_v0 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_4 : Ref sig .tc := ⟨.hbm, 58, rfl⟩
abbrev main_v33 : Ref sig .tc := ⟨.hbm, 59, rfl⟩
abbrev main_v34 : Ref sig .tc := ⟨.hbm, 60, rfl⟩
abbrev main_c_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_call2_cst : Ref sig .tc := ⟨.hbm, 74, rfl⟩
abbrev main_call2_v0 : Ref sig .tc := ⟨.hbm, 75, rfl⟩
abbrev main_v46 : Ref sig .tc := ⟨.hbm, 76, rfl⟩
abbrev main_v47 : Ref sig .tc := ⟨.hbm, 77, rfl⟩

abbrev nD : Nat := 1
abbrev τ : Topo := Topo.v7x

variable {F : FTy → Type} [FloatOps F]

class Facts₀ : Prop where
  bcast_S_S300000 : S_.BroadcastsInDim S300000 (![] : Fin 0 → Fin S300000.rank)
  bcast_S300000_S300000x1_0 : S300000.BroadcastsInDim S300000x1 (![0] : Fin 1 → Fin S300000x1.rank)
  bcast_S_S20000x128 : S_.BroadcastsInDim S20000x128 (![] : Fin 0 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S10000x128 : S_.BroadcastsInDim S10000x128 (![] : Fin 0 → Fin S10000x128.rank)
  bcast_S1x128_S10000x128_0_1 : S1x128.BroadcastsInDim S10000x128 (![0, 1] : Fin 2 → Fin S10000x128.rank)
  dot_S20000x128_S128x128_S20000x128_1_0_0_1_n_n_wf : DotDims.WF S20000x128 S128x128 S20000x128 [1] [0] [0] [1] [] []
  gather_S20000x128_S300000x1_S300000x128_1_0_n_n_0_1_1128_wf : GatherDims.WF S20000x128 S300000x1 S300000x128 [1] [0] [] [0] [] 1 ![1, 128]
  scatter_S20000x128_S300000x1_S300000x128_1_0_0_1_wf : ScatterDims.WF S20000x128 S300000x1 S300000x128 [1] [0] [0] 1
  dot_S50000x128_S128x128_S50000x128_1_0_0_1_n_n_wf : DotDims.WF S50000x128 S128x128 S50000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S10000x128_S128x128_S10000x128_1_0_0_1_n_n_wf : DotDims.WF S10000x128 S128x128 S10000x128 [1] [0] [0] [1] [] []
  gather_S10000x128_S100000x1_S100000x128_1_0_n_n_0_1_1128_wf : GatherDims.WF S10000x128 S100000x1 S100000x128 [1] [0] [] [0] [] 1 ![1, 128]
  scatter_S10000x128_S100000x1_S100000x128_1_0_0_1_wf : ScatterDims.WF S10000x128 S100000x1 S100000x128 [1] [0] [0] 1

variable [Facts₀]

def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S300000x1_S300000x128_1_0_n_n_0_1_1128 : GatherDims S20000x128 S300000x1 S300000x128 where
  offsetDims := [1]
  collapsedSliceDims := [0]
  operandBatchingDims := []
  startIndicesBatchingDims := []
  startIndexMap := [0]
  indexVectorDim := 1
  sliceSizes := ![1, 128]
  wf := gather_S20000x128_S300000x1_S300000x128_1_0_n_n_0_1_1128_wf
def scatter_S20000x128_S300000x1_S300000x128_1_0_0_1 : ScatterDims S20000x128 S300000x1 S300000x128 where
  updateWindowDims := [1]
  insertedWindowDims := [0]
  scatterDimsToOperandDims := [0]
  indexVectorDim := 1
  wf := scatter_S20000x128_S300000x1_S300000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S100000x1_S100000x128_1_0_n_n_0_1_1128 : GatherDims S10000x128 S100000x1 S100000x128 where
  offsetDims := [1]
  collapsedSliceDims := [0]
  operandBatchingDims := []
  startIndicesBatchingDims := []
  startIndexMap := [0]
  indexVectorDim := 1
  sliceSizes := ![1, 128]
  wf := gather_S10000x128_S100000x1_S100000x128_1_0_n_n_0_1_1128_wf
def scatter_S10000x128_S100000x1_S100000x128_1_0_0_1 : ScatterDims S10000x128 S100000x1 S100000x128 where
  updateWindowDims := [1]
  insertedWindowDims := [0]
  scatterDimsToOperandDims := [0]
  indexVectorDim := 1
  wf := scatter_S10000x128_S100000x1_S100000x128_1_0_0_1_wf

class Facts : Prop extends Facts₀ where

variable [Facts]
-- ==== Proof.NamedRun.lean ====
/-
  The kernel program's run with its three result buffers named: every weakly fair execution terminates without a fault,
  the arguments end as launched, and each result buffer ends at the contents the last segment boundary gives it (the
  program's segments run in order, each from the contents the one before left).
-/
import proofs.«109767_j9457517986562_1_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main on the TensorCores, from any memory with zero counters, terminates without
    faulting, and in every final state each of the three layers' result buffers holds the last boundary's contents
    `W9` there, and every argument array is as launched. -/
theorem run_named : θ_run defs (onTc (τ := τ) (main (F := F))) ⟨m, fun _ => 0, ρ⟩ (fun r => ∀ c : Dev nD,
      r.2.mem ((c.tc : Thread nD τ).loc main_v12) = W9 m ρ c (Proc.devRef .tc main_v12)
      ∧ r.2.mem ((c.tc : Thread nD τ).loc main_v25) = W9 m ρ c (Proc.devRef .tc main_v25)
      ∧ r.2.mem ((c.tc : Thread nD τ).loc main_v38) = W9 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v12 (by decide)),
       h c _ (mem_uc main_v25 (by decide)),
       h c _ (mem_uc main_v38 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c)⟩)

end Cert.KernelIdeal.Bridge

end
-- ==== Proof.Fold.lean ====
/-
  Which segment of the kernel program writes which buffer. The program is nine segments in a row — per graph a
  projection kernel, a stretch of host operations, a combine kernel — and a segment changes only its own buffers: a kernel
  its output array (its input arrays end as it found them), a host stretch its fourteen result buffers. So a buffer's
  contents at any boundary are what the last segment that writes it left there, or the launch memory if none does: an
  argument array is never written; a projection's array is read by the host stretch right after it; a combine kernel's
  array is a result of the program and is not touched again.
-/
import proofs.«109767_j9457517986562_1_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! # Buffers read back through the boundary contents `W0 … W9`

## What the three host stretches leave alone -/

/-- The host operations between regions 0 and 1 write only their own 14 result buffers: any other buffer keeps its contents. -/
theorem keep1 (W : Valuation τ sig (Elt F)) (b : Ref sig .tc)
    (hb : b ∉ [main_c, main_v1, main_v2, main_c_0, main_v3, main_v4, main_v5, main_v6, main_v7, main_cst, main_v8, main_v9, main_v10, main_v11]) :
    StableHlo.after hostOps1 W (Proc.devRef .tc b) = W (Proc.devRef .tc b) :=
  StableHlo.after_of_writes_sub hostOps1 W (by
    simp only [hostOps1, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

/-- The host operations between regions 2 and 3 write only their own 14 result buffers: any other buffer keeps its contents. -/
theorem keep3 (W : Valuation τ sig (Elt F)) (b : Ref sig .tc)
    (hb : b ∉ [main_c_1, main_v14, main_v15, main_c_2, main_v16, main_v17, main_v18, main_v19, main_v20, main_cst_3, main_v21, main_v22, main_v23, main_v24]) :
    StableHlo.after hostOps3 W (Proc.devRef .tc b) = W (Proc.devRef .tc b) :=
  StableHlo.after_of_writes_sub hostOps3 W (by
    simp only [hostOps3, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

/-- The host operations between regions 4 and 5 write only their own 14 result buffers: any other buffer keeps its contents. -/
theorem keep5 (W : Valuation τ sig (Elt F)) (b : Ref sig .tc)
    (hb : b ∉ [main_c_4, main_v27, main_v28, main_c_5, main_v29, main_v30, main_v31, main_v32, main_v33, main_cst_6, main_v34, main_v35, main_v36, main_v37]) :
    StableHlo.after hostOps5 W (Proc.devRef .tc b) = W (Proc.devRef .tc b) :=
  StableHlo.after_of_writes_sub hostOps5 W (by
    simp only [hostOps5, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

/-! ## The first graph: regions 0 and 1 -/

/-- Region 0 writes the projected features into its output window's array. -/
theorem W1_v0 (c : Dev nD) : W1 m ρ c (Proc.devRef .tc main_v0) = (dat0 (V0 m ρ) c).arrAt 2 cfg0.N :=
  W1_arr m ρ c 2

/-- Region 0 owns neither edge-index array: the sources are as launched. -/
theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := W1_of_ne m ρ c main_arg3 (by decide)
    _ = m ((c : Thread nD τ).loc main_arg3) := rfl

/-- Region 0 leaves the destinations alone: as launched. -/
theorem W1_arg4 (c : Dev nD) : W1 m ρ c (Proc.devRef .tc main_arg4) = m ((c : Thread nD τ).loc main_arg4) :=
  calc W1 m ρ c (Proc.devRef .tc main_arg4)
    _ = W0 m ρ c (Proc.devRef .tc main_arg4) := W1_of_ne m ρ c main_arg4 (by decide)
    _ = m ((c : Thread nD τ).loc main_arg4) := rfl

/-- Region 0 leaves the bias alone: as launched. -/
theorem W1_arg10 (c : Dev nD) : W1 m ρ c (Proc.devRef .tc main_arg10) = m ((c : Thread nD τ).loc main_arg10) :=
  calc W1 m ρ c (Proc.devRef .tc main_arg10)
    _ = W0 m ρ c (Proc.devRef .tc main_arg10) := W1_of_ne m ρ c main_arg10 (by decide)
    _ = m ((c : Thread nD τ).loc main_arg10) := rfl

/-- The host operations after region 0 do not write the features, and region 0 only reads them through an input window: as launched. -/
theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := keep1 (W1 m ρ c) main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- Region 1 writes the first layer's result; regions 2 to 5 and the two later host stretches leave it alone. -/
theorem W9_v12 (c : Dev nD) : W9 m ρ c (Proc.devRef .tc main_v12) = (dat1 (V2 m ρ) c).arrAt 3 cfg1.N :=
  calc W9 m ρ c (Proc.devRef .tc main_v12)
    _ = W8 m ρ c (Proc.devRef .tc main_v12) := W9_of_ne m ρ c main_v12 (by decide)
    _ = W7 m ρ c (Proc.devRef .tc main_v12) := keep5 (W7 m ρ c) main_v12 (by decide)
    _ = W6 m ρ c (Proc.devRef .tc main_v12) := W7_of_ne m ρ c main_v12 (by decide)
    _ = W5 m ρ c (Proc.devRef .tc main_v12) := W6_of_ne m ρ c main_v12 (by decide)
    _ = W4 m ρ c (Proc.devRef .tc main_v12) := keep3 (W4 m ρ c) main_v12 (by decide)
    _ = W3 m ρ c (Proc.devRef .tc main_v12) := W4_of_ne m ρ c main_v12 (by decide)
    _ = (dat1 (V2 m ρ) c).arrAt 3 cfg1.N := W3_arr m ρ c 3

/-! ## The second graph: regions 2 and 3 -/

/-- Regions 0 and 1 and the host operations between them leave the second graph's features alone: as launched. -/
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := keep1 (W1 m ρ c) main_arg1 (by decide)
    _ = W0 m ρ c (Proc.devRef .tc main_arg1) := W1_of_ne m ρ c main_arg1 (by decide)
    _ = m ((c : Thread nD τ).loc main_arg1) := rfl

/-- Regions 0 and 1 and the host operations between them leave the second graph's weights alone: as launched. -/
theorem W3_arg11 (c : Dev nD) : W3 m ρ c (Proc.devRef .tc main_arg11) = m ((c : Thread nD τ).loc main_arg11) :=
  calc W3 m ρ c (Proc.devRef .tc main_arg11)
    _ = W2 m ρ c (Proc.devRef .tc main_arg11) := W3_of_ne m ρ c main_arg11 (by decide)
    _ = W1 m ρ c (Proc.devRef .tc main_arg11) := keep1 (W1 m ρ c) main_arg11 (by decide)
    _ = W0 m ρ c (Proc.devRef .tc main_arg11) := W1_of_ne m ρ c main_arg11 (by decide)
    _ = m ((c : Thread nD τ).loc main_arg11) := rfl

/-- Region 2 writes the projected features into its output window's array. -/
theorem W4_v13 (c : Dev nD) : W4 m ρ c (Proc.devRef .tc main_v13) = (dat2 (V3 m ρ) c).arrAt 2 cfg2.N :=
  W4_arr m ρ c 2

/-- Regions 0 to 2 and the first host stretch leave the second graph's sources alone: as launched. -/
theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := keep1 (W1 m ρ c) main_arg5 (by decide)
    _ = W0 m ρ c (Proc.devRef .tc main_arg5) := W1_of_ne m ρ c main_arg5 (by decide)
    _ = m ((c : Thread nD τ).loc main_arg5) := rfl

/-- Regions 0 to 2 and the first host stretch leave the second graph's destinations alone: as launched. -/
theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := keep1 (W1 m ρ c) main_arg6 (by decide)
    _ = W0 m ρ c (Proc.devRef .tc main_arg6) := W1_of_ne m ρ c main_arg6 (by decide)
    _ = m ((c : Thread nD τ).loc main_arg6) := rfl

/-- Regions 0 to 2 and the first host stretch leave the second graph's bias alone: as launched. -/
theorem W4_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := W3_of_ne m ρ c main_arg12 (by decide)
    _ = W1 m ρ c (Proc.devRef .tc main_arg12) := keep1 (W1 m ρ c) main_arg12 (by decide)
    _ = W0 m ρ c (Proc.devRef .tc main_arg12) := W1_of_ne m ρ c main_arg12 (by decide)
    _ = m ((c : Thread nD τ).loc main_arg12) := rfl

/-- The host operations after region 2 do not write the second graph's features, and region 2 only reads them through an input window: as launched. -/
theorem W5_arg1 (c : Dev nD) : W5 m ρ c (Proc.devRef .tc main_arg1) = m ((c : Thread nD τ).loc main_arg1) :=
  calc W5 m ρ c (Proc.devRef .tc main_arg1)
    _ = W4 m ρ c (Proc.devRef .tc main_arg1) := keep3 (W4 m ρ c) main_arg1 (by decide)
    _ = W3 m ρ c (Proc.devRef .tc main_arg1) := (W4_arr m ρ c 0).trans (((dat2 (V3 m ρ) c).arrAt_in 0 rfl _).trans (A_eq2 (V3 m ρ) c 0))
    _ = W2 m ρ c (Proc.devRef .tc main_arg1) := W3_of_ne m ρ c main_arg1 (by decide)
    _ = W1 m ρ c (Proc.devRef .tc main_arg1) := keep1 (W1 m ρ c) main_arg1 (by decide)
    _ = W0 m ρ c (Proc.devRef .tc main_arg1) := W1_of_ne m ρ c main_arg1 (by decide)
    _ = m ((c : Thread nD τ).loc main_arg1) := rfl

/-- Region 3 writes the second layer's result; regions 4 and 5 and the last host stretch leave it alone. -/
theorem W9_v25 (c : Dev nD) : W9 m ρ c (Proc.devRef .tc main_v25) = (dat3 (V5 m ρ) c).arrAt 3 cfg3.N :=
  calc W9 m ρ c (Proc.devRef .tc main_v25)
    _ = W8 m ρ c (Proc.devRef .tc main_v25) := W9_of_ne m ρ c main_v25 (by decide)
    _ = W7 m ρ c (Proc.devRef .tc main_v25) := keep5 (W7 m ρ c) main_v25 (by decide)
    _ = W6 m ρ c (Proc.devRef .tc main_v25) := W7_of_ne m ρ c main_v25 (by decide)
    _ = (dat3 (V5 m ρ) c).arrAt 3 cfg3.N := W6_arr m ρ c 3

/-! ## The third graph: regions 4 and 5 -/

/-- Regions 0 to 3 and the first two host stretches leave the third graph's features alone: as launched. -/
theorem W6_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := keep3 (W4 m ρ c) main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := keep1 (W1 m ρ c) main_arg2 (by decide)
    _ = W0 m ρ c (Proc.devRef .tc main_arg2) := W1_of_ne m ρ c main_arg2 (by decide)
    _ = m ((c : Thread nD τ).loc main_arg2) := rfl

/-- Regions 0 to 3 and the first two host stretches leave the third graph's weights alone: as launched. -/
theorem W6_arg13 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := keep3 (W4 m ρ c) main_arg13 (by decide)
    _ = W3 m ρ c (Proc.devRef .tc main_arg13) := W4_of_ne m ρ c main_arg13 (by decide)
    _ = W2 m ρ c (Proc.devRef .tc main_arg13) := W3_of_ne m ρ c main_arg13 (by decide)
    _ = W1 m ρ c (Proc.devRef .tc main_arg13) := keep1 (W1 m ρ c) main_arg13 (by decide)
    _ = W0 m ρ c (Proc.devRef .tc main_arg13) := W1_of_ne m ρ c main_arg13 (by decide)
    _ = m ((c : Thread nD τ).loc main_arg13) := rfl

/-- Region 4 writes the projected features into its output window's array. -/
theorem W7_v26 (c : Dev nD) : W7 m ρ c (Proc.devRef .tc main_v26) = (dat4 (V6 m ρ) c).arrAt 2 cfg4.N :=
  W7_arr m ρ c 2

/-- Regions 0 to 4 and the first two host stretches leave the third graph's sources alone: as launched. -/
theorem W7_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := keep3 (W4 m ρ c) main_arg7 (by decide)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := keep1 (W1 m ρ c) main_arg7 (by decide)
    _ = W0 m ρ c (Proc.devRef .tc main_arg7) := W1_of_ne m ρ c main_arg7 (by decide)
    _ = m ((c : Thread nD τ).loc main_arg7) := rfl

/-- Regions 0 to 4 and the first two host stretches leave the third graph's destinations alone: as launched. -/
theorem W7_arg8 (c : Dev nD) : W7 m ρ c (Proc.devRef .tc main_arg8) = m ((c : Thread nD τ).loc main_arg8) :=
  calc W7 m ρ c (Proc.devRef .tc main_arg8)
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := keep3 (W4 m ρ c) main_arg8 (by decide)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := keep1 (W1 m ρ c) main_arg8 (by decide)
    _ = W0 m ρ c (Proc.devRef .tc main_arg8) := W1_of_ne m ρ c main_arg8 (by decide)
    _ = m ((c : Thread nD τ).loc main_arg8) := rfl

/-- Regions 0 to 4 and the first two host stretches leave the third graph's bias alone: as launched. -/
theorem W7_arg14 (c : Dev nD) : W7 m ρ c (Proc.devRef .tc main_arg14) = m ((c : Thread nD τ).loc main_arg14) :=
  calc W7 m ρ c (Proc.devRef .tc main_arg14)
    _ = W6 m ρ c (Proc.devRef .tc main_arg14) := W7_of_ne m ρ c main_arg14 (by decide)
    _ = W5 m ρ c (Proc.devRef .tc main_arg14) := W6_of_ne m ρ c main_arg14 (by decide)
    _ = W4 m ρ c (Proc.devRef .tc main_arg14) := keep3 (W4 m ρ c) main_arg14 (by decide)
    _ = W3 m ρ c (Proc.devRef .tc main_arg14) := W4_of_ne m ρ c main_arg14 (by decide)
    _ = W2 m ρ c (Proc.devRef .tc main_arg14) := W3_of_ne m ρ c main_arg14 (by decide)
    _ = W1 m ρ c (Proc.devRef .tc main_arg14) := keep1 (W1 m ρ c) main_arg14 (by decide)
    _ = W0 m ρ c (Proc.devRef .tc main_arg14) := W1_of_ne m ρ c main_arg14 (by decide)
    _ = m ((c : Thread nD τ).loc main_arg14) := rfl

/-- The host operations after region 4 do not write the third graph's features, and region 4 only reads them through an input window: as launched. -/
theorem W8_arg2 (c : Dev nD) : W8 m ρ c (Proc.devRef .tc main_arg2) = m ((c : Thread nD τ).loc main_arg2) :=
  calc W8 m ρ c (Proc.devRef .tc main_arg2)
    _ = W7 m ρ c (Proc.devRef .tc main_arg2) := keep5 (W7 m ρ c) main_arg2 (by decide)
    _ = W6 m ρ c (Proc.devRef .tc main_arg2) := (W7_arr m ρ c 0).trans (((dat4 (V6 m ρ) c).arrAt_in 0 rfl _).trans (A_eq4 (V6 m ρ) c 0))
    _ = W5 m ρ c (Proc.devRef .tc main_arg2) := W6_of_ne m ρ c main_arg2 (by decide)
    _ = W4 m ρ c (Proc.devRef .tc main_arg2) := keep3 (W4 m ρ c) main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := keep1 (W1 m ρ c) main_arg2 (by decide)
    _ = W0 m ρ c (Proc.devRef .tc main_arg2) := W1_of_ne m ρ c main_arg2 (by decide)
    _ = m ((c : Thread nD τ).loc main_arg2) := rfl

/-- Region 5 writes the third layer's result into its output window's array. -/
theorem W9_v38 (c : Dev nD) : W9 m ρ c (Proc.devRef .tc main_v38) = (dat5 (V8 m ρ) c).arrAt 3 cfg5.N :=
  W9_arr m ρ c 3

end Cert.KernelIdeal.Bridge

end
-- ==== Proof.Spec.lean ====
/-
  One graph-convolution layer as whole-array functions, spelt with the reference program's own operations:
  `agg` (the messages `xw[src]` summed into their targets, a gather followed by a scatter-add into zero) and
  `combine` (`max (agg + b) 0 + x`, the bias a [1, 128] row laid over every row). The reference's three results are
  `combine (agg (x · W) src dst) x b` by unfolding; the kernel computes the projection `x · W` and the combine step
  block of rows by block of rows, and the aggregation between them with the same two host operations.
-/
import proofs.«109767_j9457517986562_1_alg».proof.Proof.Gen.ReferenceIdeal.Read

noncomputable section

namespace Cert.Gcn

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! ## The graph with 20000 nodes and 300000 edges -/

/-- Messages summed into their target nodes: starting from the zero matrix, for every edge `e` the row of the
    projected features `xw` at the edge's source (a negative source index counted from the end) is added into the
    row at the edge's target. -/
def aggMf (xw : (⟨S20000x128, .f32⟩ : BufTy).Contents (Elt F)) (src dst : (⟨S300000, .i32⟩ : BufTy).Contents (Elt F)) :
    (⟨S20000x128, .f32⟩ : BufTy).Contents (Elt F) :=
  Host.scatterAdd scatter_S20000x128_S300000x1_S300000x128_1_0_0_1 (val_main_v8 (F := F)) (val_main_v9 (F := F) dst)
    (Host.gather gather_S20000x128_S300000x1_S300000x128_1_0_n_n_0_1_1128 xw (val_main_v6 (F := F) src))

/-- The layer's last step on whole arrays: the bias row added to every row of the aggregate, the positive part of
    that, and the input features added back. -/
def combineMf (agg x : (⟨S20000x128, .f32⟩ : BufTy).Contents (Elt F)) (brow : (⟨S1x128, .f32⟩ : BufTy).Contents (Elt F)) :
    (⟨S20000x128, .f32⟩ : BufTy).Contents (Elt F) :=
  addf (maximumf (addf agg (broadcastInDim S20000x128 ![0, 1] bcast_S1x128_S20000x128_0_1 brow)) (val_main_call0_v0 (F := F))) x

/-- The reference's result for this graph is the layer: project, aggregate along the edges, combine. -/
theorem val_main_v15_eq_layer (x : (⟨S20000x128, .f32⟩ : BufTy).Contents (Elt F)) (src dst : (⟨S300000, .i32⟩ : BufTy).Contents (Elt F))
    (w : (⟨S128x128, .f32⟩ : BufTy).Contents (Elt F)) (b : (⟨S128, .f32⟩ : BufTy).Contents (Elt F)) :
    val_main_v15 (F := F) x src dst w b
      = combineMf (aggMf (val_main_v0 (F := F) x w) src dst) x (val_main_v11 (F := F) b) := rfl

/-- The combine step read at one entry, on the extended reals: `max (agg + b) 0 + x`, the bias read at the entry's column. -/
theorem combineMf_apply (agg x : (⟨S20000x128, .f32⟩ : BufTy).Contents (Elt Ideal)) (brow : (⟨S1x128, .f32⟩ : BufTy).Contents (Elt Ideal))
    (i : S20000x128.Idx) :
    combineMf (F := Ideal) agg x brow i = max (agg i + brow (idx_main_v12 i)) (Ideal.ofBits .f32 0x00000000#32) + x i := by
  have hb : broadcastInDim S20000x128 ![0, 1] bcast_S1x128_S20000x128_0_1 brow i = brow (idx_main_v12 i) :=
    broadcastInDim_apply _ bcast_S1x128_S20000x128_0_1 brow i (idx_main_v12 i) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])
  show max (agg i + broadcastInDim S20000x128 ![0, 1] bcast_S1x128_S20000x128_0_1 brow i) (val_main_call0_v0 (F := Ideal) i) + x i = _
  rw [hb, val_main_call0_v0_apply]
  rfl

/-! ## The graph with 50000 nodes and 500000 edges -/

/-- Messages summed into their target nodes: starting from the zero matrix, for every edge `e` the row of the
    projected features `xw` at the edge's source (a negative source index counted from the end) is added into the
    row at the edge's target. -/
def aggBp (xw : (⟨S50000x128, .f32⟩ : BufTy).Contents (Elt F)) (src dst : (⟨S500000, .i32⟩ : BufTy).Contents (Elt F)) :
    (⟨S50000x128, .f32⟩ : BufTy).Contents (Elt F) :=
  Host.scatterAdd scatter_S50000x128_S500000x1_S500000x128_1_0_0_1 (val_main_v24 (F := F)) (val_main_v25 (F := F) dst)
    (Host.gather gather_S50000x128_S500000x1_S500000x128_1_0_n_n_0_1_1128 xw (val_main_v22 (F := F) src))

/-- The layer's last step on whole arrays: the bias row added to every row of the aggregate, the positive part of
    that, and the input features added back. -/
def combineBp (agg x : (⟨S50000x128, .f32⟩ : BufTy).Contents (Elt F)) (brow : (⟨S1x128, .f32⟩ : BufTy).Contents (Elt F)) :
    (⟨S50000x128, .f32⟩ : BufTy).Contents (Elt F) :=
  addf (maximumf (addf agg (broadcastInDim S50000x128 ![0, 1] bcast_S1x128_S50000x128_0_1 brow)) (val_main_call1_v0 (F := F))) x

/-- The reference's result for this graph is the layer: project, aggregate along the edges, combine. -/
theorem val_main_v31_eq_layer (x : (⟨S50000x128, .f32⟩ : BufTy).Contents (Elt F)) (src dst : (⟨S500000, .i32⟩ : BufTy).Contents (Elt F))
    (w : (⟨S128x128, .f32⟩ : BufTy).Contents (Elt F)) (b : (⟨S128, .f32⟩ : BufTy).Contents (Elt F)) :
    val_main_v31 (F := F) x src dst w b
      = combineBp (aggBp (val_main_v16 (F := F) x w) src dst) x (val_main_v27 (F := F) b) := rfl

/-- The combine step read at one entry, on the extended reals: `max (agg + b) 0 + x`, the bias read at the entry's column. -/
theorem combineBp_apply (agg x : (⟨S50000x128, .f32⟩ : BufTy).Contents (Elt Ideal)) (brow : (⟨S1x128, .f32⟩ : BufTy).Contents (Elt Ideal))
    (i : S50000x128.Idx) :
    combineBp (F := Ideal) agg x brow i = max (agg i + brow (idx_main_v28 i)) (Ideal.ofBits .f32 0x00000000#32) + x i := by
  have hb : broadcastInDim S50000x128 ![0, 1] bcast_S1x128_S50000x128_0_1 brow i = brow (idx_main_v28 i) :=
    broadcastInDim_apply _ bcast_S1x128_S50000x128_0_1 brow i (idx_main_v28 i) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])
  show max (agg i + broadcastInDim S50000x128 ![0, 1] bcast_S1x128_S50000x128_0_1 brow i) (val_main_call1_v0 (F := Ideal) i) + x i = _
  rw [hb, val_main_call1_v0_apply]
  rfl

/-! ## The graph with 10000 nodes and 100000 edges -/

/-- Messages summed into their target nodes: starting from the zero matrix, for every edge `e` the row of the
    projected features `xw` at the edge's source (a negative source index counted from the end) is added into the
    row at the edge's target. -/
def aggCc (xw : (⟨S10000x128, .f32⟩ : BufTy).Contents (Elt F)) (src dst : (⟨S100000, .i32⟩ : BufTy).Contents (Elt F)) :
    (⟨S10000x128, .f32⟩ : BufTy).Contents (Elt F) :=
  Host.scatterAdd scatter_S10000x128_S100000x1_S100000x128_1_0_0_1 (val_main_v40 (F := F)) (val_main_v41 (F := F) dst)
    (Host.gather gather_S10000x128_S100000x1_S100000x128_1_0_n_n_0_1_1128 xw (val_main_v38 (F := F) src))

/-- The layer's last step on whole arrays: the bias row added to every row of the aggregate, the positive part of
    that, and the input features added back. -/
def combineCc (agg x : (⟨S10000x128, .f32⟩ : BufTy).Contents (Elt F)) (brow : (⟨S1x128, .f32⟩ : BufTy).Contents (Elt F)) :
    (⟨S10000x128, .f32⟩ : BufTy).Contents (Elt F) :=
  addf (maximumf (addf agg (broadcastInDim S10000x128 ![0, 1] bcast_S1x128_S10000x128_0_1 brow)) (val_main_call2_v0 (F := F))) x

/-- The reference's result for this graph is the layer: project, aggregate along the edges, combine. -/
theorem val_main_v47_eq_layer (x : (⟨S10000x128, .f32⟩ : BufTy).Contents (Elt F)) (src dst : (⟨S100000, .i32⟩ : BufTy).Contents (Elt F))
    (w : (⟨S128x128, .f32⟩ : BufTy).Contents (Elt F)) (b : (⟨S128, .f32⟩ : BufTy).Contents (Elt F)) :
    val_main_v47 (F := F) x src dst w b
      = combineCc (aggCc (val_main_v32 (F := F) x w) src dst) x (val_main_v43 (F := F) b) := rfl

/-- The combine step read at one entry, on the extended reals: `max (agg + b) 0 + x`, the bias read at the entry's column. -/
theorem combineCc_apply (agg x : (⟨S10000x128, .f32⟩ : BufTy).Contents (Elt Ideal)) (brow : (⟨S1x128, .f32⟩ : BufTy).Contents (Elt Ideal))
    (i : S10000x128.Idx) :
    combineCc (F := Ideal) agg x brow i = max (agg i + brow (idx_main_v44 i)) (Ideal.ofBits .f32 0x00000000#32) + x i := by
  have hb : broadcastInDim S10000x128 ![0, 1] bcast_S1x128_S10000x128_0_1 brow i = brow (idx_main_v44 i) :=
    broadcastInDim_apply _ bcast_S1x128_S10000x128_0_1 brow i (idx_main_v44 i) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])
  show max (agg i + broadcastInDim S10000x128 ![0, 1] bcast_S1x128_S10000x128_0_1 brow i) (val_main_call2_v0 (F := Ideal) i) + x i = _
  rw [hb, val_main_call2_v0_apply]
  rfl

end Cert.Gcn

end
-- ==== Proof.Host.lean ====
/-
  Between a graph's two kernels the host gathers the projected rows at the edges' sources and sums them into the edges'
  targets, and lays the bias out as a [1, 128] row: the same operations, on the same buffers' contents, as the
  reference's, so the buffer the second kernel reads is the reference's aggregate of whatever the first kernel left.
-/
import proofs.«109767_j9457517986562_1_alg».proof.Proof.Gen.KernelIdeal.Frame
import proofs.«109767_j9457517986562_1_alg».proof.Proof.Spec
import Idealize.ShloMosaic.Lib.StableHlo.Run
import Idealize.ShloMosaic.Lib.ValueLayout

set_option maxRecDepth 16384

noncomputable section

namespace Cert.KernelIdeal.Bridge

open Cert.KernelIdeal Cert.KernelIdeal.Gen Idealize.ShloMosaic Idealize.ShloMosaic.TcCoe Idealize.SL.Sem Idealize.ShloMosaic.StableHlo Idealize.ShloMosaic.ValueIdx

variable {F : FTy → Type} [FloatOps F]

/-! ## The graph with 20000 nodes -/

/-- After the stretch the aggregate's buffer holds the messages of the projection's buffer summed along the edges. -/
theorem host_agg_Mf (W : Valuation τ sig (Elt F)) :
    StableHlo.after hostOps1 W (Proc.devRef .tc main_v10)
      = Cert.Gcn.aggMf (F := F) (W (Proc.devRef .tc main_v0)) (W (Proc.devRef .tc main_arg3)) (W (Proc.devRef .tc main_arg4)) := by
  after_results
  rfl

/-- After the stretch the bias row's buffer holds the bias as a [1, 128] row: a reshape of a [128] vector and its
    broadcast along a new leading axis both read, at (u, q), the vector's entry q. -/
theorem host_brow_Mf (W : Valuation τ sig (Elt F)) :
    StableHlo.after hostOps1 W (Proc.devRef .tc main_v11)
      = Cert.ReferenceIdeal.Read.val_main_v11 (F := F) (W (Proc.devRef .tc main_arg10)) := by
  after_results
  funext i
  obtain ⟨u, q, rfl⟩ : ∃ (u : Fin 1) (q : Fin 128), i = ix2 u q := ⟨i 0, i 1, eq_ix2 i⟩
  rw [Cert.ReferenceIdeal.Read.val_main_v11_apply]
  refine (shapeCast_a_1a_apply (W (Proc.devRef .tc main_arg10)) shapeCasts_S128_S1x128 u q).trans ?_
  exact congrArg (W (Proc.devRef .tc main_arg10)) (funext fun a => Fin.ext (by match a with | ⟨0, _⟩ => rfl))

/-! ## The graph with 50000 nodes -/

/-- After the stretch the aggregate's buffer holds the messages of the projection's buffer summed along the edges. -/
theorem host_agg_Bp (W : Valuation τ sig (Elt F)) :
    StableHlo.after hostOps3 W (Proc.devRef .tc main_v23)
      = Cert.Gcn.aggBp (F := F) (W (Proc.devRef .tc main_v13)) (W (Proc.devRef .tc main_arg5)) (W (Proc.devRef .tc main_arg6)) := by
  after_results
  rfl

/-- After the stretch the bias row's buffer holds the bias as a [1, 128] row: a reshape of a [128] vector and its
    broadcast along a new leading axis both read, at (u, q), the vector's entry q. -/
theorem host_brow_Bp (W : Valuation τ sig (Elt F)) :
    StableHlo.after hostOps3 W (Proc.devRef .tc main_v24)
      = Cert.ReferenceIdeal.Read.val_main_v27 (F := F) (W (Proc.devRef .tc main_arg12)) := by
  after_results
  funext i
  obtain ⟨u, q, rfl⟩ : ∃ (u : Fin 1) (q : Fin 128), i = ix2 u q := ⟨i 0, i 1, eq_ix2 i⟩
  rw [Cert.ReferenceIdeal.Read.val_main_v27_apply]
  refine (shapeCast_a_1a_apply (W (Proc.devRef .tc main_arg12)) shapeCasts_S128_S1x128 u q).trans ?_
  exact congrArg (W (Proc.devRef .tc main_arg12)) (funext fun a => Fin.ext (by match a with | ⟨0, _⟩ => rfl))

/-! ## The graph with 10000 nodes -/

/-- After the stretch the aggregate's buffer holds the messages of the projection's buffer summed along the edges. -/
theorem host_agg_Cc (W : Valuation τ sig (Elt F)) :
    StableHlo.after hostOps5 W (Proc.devRef .tc main_v36)
      = Cert.Gcn.aggCc (F := F) (W (Proc.devRef .tc main_v26)) (W (Proc.devRef .tc main_arg7)) (W (Proc.devRef .tc main_arg8)) := by
  after_results
  rfl

/-- After the stretch the bias row's buffer holds the bias as a [1, 128] row: a reshape of a [128] vector and its
    broadcast along a new leading axis both read, at (u, q), the vector's entry q. -/
theorem host_brow_Cc (W : Valuation τ sig (Elt F)) :
    StableHlo.after hostOps5 W (Proc.devRef .tc main_v37)
      = Cert.ReferenceIdeal.Read.val_main_v43 (F := F) (W (Proc.devRef .tc main_arg14)) := by
  after_results
  funext i
  obtain ⟨u, q, rfl⟩ : ∃ (u : Fin 1) (q : Fin 128), i = ix2 u q := ⟨i 0, i 1, eq_ix2 i⟩
  rw [Cert.ReferenceIdeal.Read.val_main_v43_apply]
  refine (shapeCast_a_1a_apply (W (Proc.devRef .tc main_arg14)) shapeCasts_S128_S1x128 u q).trans ?_
  exact congrArg (W (Proc.devRef .tc main_arg14)) (funext fun a => Fin.ext (by match a with | ⟨0, _⟩ => rfl))

end Cert.KernelIdeal.Bridge

end
-- ==== Proof.LibMatmulRows.lean ====
/-
  A matrix product accumulated into zero, read one entry at a time.

  For the plain dimension numbers "rows by contraction, times contraction by columns" (`DotDims.plain M K N`: the left
  operand is [M, K], the right one [K, N], the result [M, N], no batch axis) the entry (p, q) of a `tpu.matmul` whose
  accumulator is the zero splat is, at the ideal values, the sum over the contraction position k of left (p, k) times
  right (k, q). So entry (p, q) depends on row p of the left operand and on column q of the right operand and on nothing
  else: a product computed on a block of rows is the block of rows of the product. The host's `dot_general` with the same
  dimension numbers reads the same way (it has no accumulator). Nothing of real arithmetic is used beyond 0 + x = x, so
  the statements hold at the infinities too.
-/
import Idealize.ShloMosaic.Lib.ValueIdx
import Idealize.ShloMosaic.PureOps.Ideal.Laws

noncomputable section

open scoped BigOperators

namespace Cert.Bridge

open Idealize.ShloMosaic Idealize.ShloMosaic.ValueIdx

/-- The left operand's row coordinate at output index `j` is `j`'s row, whatever the contraction position. -/
theorem plain_lhsIdx_row (M K N : Nat) (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate at output index `j` is `j`'s column, whatever the contraction position. -/
theorem plain_rhsIdx_col (M K N : Nat) (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index of a plain product, re-indexed by the contraction coordinate:
    the left factor is read at (p, k), the right one at (k, q). -/
theorem plain_contr_sum (M K N : Nat) (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhsIdx_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact plain_rhsIdx_col M K N _ _)
  rw [el, er]

/-- A plain `tpu.matmul` into the zero splat, read at (p, q): row p of the left operand against column q of the right. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contr_sum M K N lhs rhs p q)

/-- The host's plain `dot_general`, read at (p, q): the same sum. -/
theorem dotGeneral_plain_apply {φ₁ φ₂ : FTy} (M K N : Nat) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q) = ∑ k : Fin K, lhs (ix2 p k) * rhs (ix2 k q) :=
  (Ideal.dotGeneral_apply (DotDims.plain M K N) prec sched lhs rhs (ix2 p q)).trans (plain_contr_sum M K N lhs rhs p q)

end Cert.Bridge

end
-- ==== Proof.ProjMf.lean ====
/-
  The projection x · W of the Mf graph (20000 nodes, 128 features), computed on blocks of 2000 rows.

  A BLOCK is 2000 consecutive rows of a [20000, 128] array: block t holds rows 2000 t … 2000 t + 1999, all 128 columns.
  The grid has 10 points; point t loads block t of x and the whole [128, 128] weight W, multiplies them on the matrix
  unit into a zero accumulator, and writes the product back as block t of the result. The casts to bf16 before the
  product are the identity at the ideal values.

  Entry (p, q) of the block product is the sum over k of (block of x)(p, k) · W(k, q): it depends on row 2000 t + p of x and
  on column q of W and on nothing else. That is entry (2000 t + p, q) of the full product x · W, which is what the
  reference's dot_general holds there. Every row r lies in exactly one block (block r / 2000), so after the 10 points the
  result array is x · W.
-/
import proofs.«109767_j9457517986562_1_alg».proof.Proof.Gen.KernelIdeal.Frame
import proofs.«109767_j9457517986562_1_alg».proof.Proof.Spec
import proofs.«109767_j9457517986562_1_alg».proof.Proof.LibMatmulRows

set_option maxRecDepth 16384

noncomputable section

open scoped BigOperators

namespace Cert.KernelIdeal.Bridge

open Cert.KernelIdeal Cert.KernelIdeal.Gen Idealize.ShloMosaic Idealize.ShloMosaic.TcCoe Idealize.SL.Sem Idealize.ShloMosaic.StableHlo
open Idealize.ShloMosaic.Pipeline (Dat Cfg Window)

namespace ProjMf

/-- The offset of a whole-buffer access: zero on both axes. -/
theorem hz : (![0, 0] : Fin 2 → Nat) = fun _ => 0 := funext fun a => by fin_cases a <;> rfl

/-- The body's payload on a block of x and the weight, at entry (p, q): row p of the block against column q of W.
    The two truncations are the identity at the ideal values and the accumulator is zero. -/
theorem pay_apply (x0 : Vec Ideal S2000x128 .f32) (x1 : Vec Ideal S128x128 .f32) (p : Fin 2000) (q : Fin 128) :
    k0_pay1 x0 x1 (ValueIdx.ix2 p q) = ∑ k : Fin 128, x0 (ValueIdx.ix2 p k) * x1 (ValueIdx.ix2 k q) :=
  Cert.Bridge.matmul_plain_zero_apply 2000 128 128 none x0 x1 p q

/-- The index maps, decided over the grid: the block of x a point loads is the block of rows it writes (block t, column
    block 0), and the weight's only block is (0, 0). -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every block of rows is some point's. -/
theorem idx_onto : ∀ (b : Fin 10), ∃ t : Fin cfg0.N, win0_2.index t = ![b.val, 0] :=
  (by decide +kernel : ∀ (b : Fin 10), ∃ t : Fin grid0.N, win0_2.index t = ![b.val, 0])

variable (V : (c : Dev nD) → (b : Ref sig .tc) → Buf (Elt Ideal) ((c : Thread nD τ).loc b))

/-- WHAT POINT t WRITES BACK is block t of x · W: entry (p, q) of the block product is the sum over k of
    x(2000 t + p, k) · W(k, q), which is entry (2000 t + p, q) of the full product. -/
theorem flushed_eq (c : Dev nD) (t : Fin cfg0.N) :
    (dat0 V c).flushed 2 t
      = ((cfg0.win 2).blk t).view.read (Elt Ideal) (Cert.ReferenceIdeal.Read.val_main_v0 (F := Ideal) (V c main_arg0) (V c main_arg9)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e0, e1, e2, e3, e4, e5⟩ := idx_facts t
  funext j
  obtain ⟨p, q, rfl⟩ : ∃ (p : Fin 2000) (q : Fin 128), j = ValueIdx.ix2 p q := ⟨j 0, j 1, ValueIdx.eq_ix2 j⟩
  show k0_pay1 (iblk0 V c 0 t) (iblk0 V c 1 t) (ValueIdx.ix2 p q)
    = Cert.ReferenceIdeal.Read.val_main_v0 (F := Ideal) (V c main_arg0) (V c main_arg9) (((cfg0.win 2).blk t).view.emb (ValueIdx.ix2 p q))
  refine (pay_apply (iblk0 V c 0 t) (iblk0 V c 1 t) p q).trans ?_
  refine Eq.trans ?_ (Cert.ReferenceIdeal.Read.val_main_v0_apply (V c main_arg0) (V c main_arg9) (((cfg0.win 2).blk t).view.emb (ValueIdx.ix2 p q))).symm
  refine Finset.sum_congr rfl fun k _ => ?_
  show @HMul.hMul EReal EReal EReal _ (V c main_arg0 (((cfg0.win 0).blk t).view.emb (ValueIdx.ix2 p k))) (V c main_arg9 (((cfg0.win 1).blk t).view.emb (ValueIdx.ix2 k q))) = _
  -- the block of x at (p, k) is x at row 2000 t + p, column k
  have h0 : ((cfg0.win 0).blk t).view.emb (ValueIdx.ix2 p k)
      = Cert.ReferenceIdeal.Read.lidx_main_v0 (((cfg0.win 2).blk t).view.emb (ValueIdx.ix2 p q)) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  -- the weight's block at (k, q) is W at (k, q)
  have h1 : ((cfg0.win 1).blk t).view.emb (ValueIdx.ix2 k q)
      = Cert.ReferenceIdeal.Read.ridx_main_v0 (((cfg0.win 2).blk t).view.emb (ValueIdx.ix2 p q)) k := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]

/-- An index of the result array is in point t's block iff its row is one of the block's 2000 rows (and its column
    one of the 128). -/
theorem mem_blk (t : Fin cfg0.N) (i : S20000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v0).slice (win0_2.rect t)).set ↔ _
  rw [View.set_slice_whole, Rect.mem_set_unit]
  exact Iff.rfl

/-- The blocks cover the result array: row r is in block r / 2000. -/
theorem covered (i : S20000x128.Idx) :
    ∃ t : Fin cfg0.N, (cfg0.win 2).flush t = true ∧ i ∈ ((cfg0.win 2).blk t).view.set := by
  have hi0 : (i 0).val < 20000 := (i 0).isLt
  have hi1 : (i 1).val < 128 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

end ProjMf

/-- After the 10 points the result array holds the reference's x · W. -/
theorem proj_Mf (V : (c : Dev nD) → (b : Ref sig .tc) → Buf (Elt Ideal) ((c : Thread nD τ).loc b)) (c : Dev nD) :
    (dat0 V c).arrAt 2 cfg0.N = Cert.ReferenceIdeal.Read.val_main_v0 (F := Ideal) (V c main_arg0) (V c main_arg9) :=
  (dat0 V c).arrAt_eq_of_cover 2 _ (fun t _ => ProjMf.flushed_eq V c t) ProjMf.covered

end Cert.KernelIdeal.Bridge

end
-- ==== Proof.ProjBp.lean ====
/-
  The projection x · W of the Bp graph (50000 nodes, 128 features), computed on blocks of 2000 rows.

  A BLOCK is 2000 consecutive rows of a [50000, 128] array: block t holds rows 2000 t … 2000 t + 1999, all 128 columns.
  The grid has 25 points; point t loads block t of x and the whole [128, 128] weight W, multiplies them on the matrix
  unit into a zero accumulator, and writes the product back as block t of the result. The casts to bf16 before the
  product are the identity at the ideal values.

  Entry (p, q) of the block product is the sum over k of (block of x)(p, k) · W(k, q): it depends on row 2000 t + p of x and
  on column q of W and on nothing else. That is entry (2000 t + p, q) of the full product x · W, which is what the
  reference's dot_general holds there. Every row r lies in exactly one block (block r / 2000), so after the 25 points the
  result array is x · W.
-/
import proofs.«109767_j9457517986562_1_alg».proof.Proof.Gen.KernelIdeal.Frame
import proofs.«109767_j9457517986562_1_alg».proof.Proof.Spec
import proofs.«109767_j9457517986562_1_alg».proof.Proof.LibMatmulRows

set_option maxRecDepth 16384

noncomputable section

open scoped BigOperators

namespace Cert.KernelIdeal.Bridge

open Cert.KernelIdeal Cert.KernelIdeal.Gen Idealize.ShloMosaic Idealize.ShloMosaic.TcCoe Idealize.SL.Sem Idealize.ShloMosaic.StableHlo
open Idealize.ShloMosaic.Pipeline (Dat Cfg Window)

namespace ProjBp

/-- The offset of a whole-buffer access: zero on both axes. -/
theorem hz : (![0, 0] : Fin 2 → Nat) = fun _ => 0 := funext fun a => by fin_cases a <;> rfl

/-- The body's payload on a block of x and the weight, at entry (p, q): row p of the block against column q of W.
    The two truncations are the identity at the ideal values and the accumulator is zero. -/
theorem pay_apply (x0 : Vec Ideal S2000x128 .f32) (x1 : Vec Ideal S128x128 .f32) (p : Fin 2000) (q : Fin 128) :
    k2_pay1 x0 x1 (ValueIdx.ix2 p q) = ∑ k : Fin 128, x0 (ValueIdx.ix2 p k) * x1 (ValueIdx.ix2 k q) :=
  Cert.Bridge.matmul_plain_zero_apply 2000 128 128 none x0 x1 p q

/-- The index maps, decided over the grid: the block of x a point loads is the block of rows it writes (block t, column
    block 0), and the weight's only block is (0, 0). -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 24
    ∧ win2_2.index t (1 : Fin 2) = 0 :=
  (by decide +kernel : ∀ t : Fin grid2.N, _)

/-- Every block of rows is some point's. -/
theorem idx_onto : ∀ (b : Fin 25), ∃ t : Fin cfg2.N, win2_2.index t = ![b.val, 0] :=
  (by decide +kernel : ∀ (b : Fin 25), ∃ t : Fin grid2.N, win2_2.index t = ![b.val, 0])

variable (V : (c : Dev nD) → (b : Ref sig .tc) → Buf (Elt Ideal) ((c : Thread nD τ).loc b))

/-- WHAT POINT t WRITES BACK is block t of x · W: entry (p, q) of the block product is the sum over k of
    x(2000 t + p, k) · W(k, q), which is entry (2000 t + p, q) of the full product. -/
theorem flushed_eq (c : Dev nD) (t : Fin cfg2.N) :
    (dat2 V c).flushed 2 t
      = ((cfg2.win 2).blk t).view.read (Elt Ideal) (Cert.ReferenceIdeal.Read.val_main_v16 (F := Ideal) (V c main_arg1) (V c main_arg11)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x128) hz]
  obtain ⟨e0, e1, e2, e3, e4, e5⟩ := idx_facts t
  funext j
  obtain ⟨p, q, rfl⟩ : ∃ (p : Fin 2000) (q : Fin 128), j = ValueIdx.ix2 p q := ⟨j 0, j 1, ValueIdx.eq_ix2 j⟩
  show k2_pay1 (iblk2 V c 0 t) (iblk2 V c 1 t) (ValueIdx.ix2 p q)
    = Cert.ReferenceIdeal.Read.val_main_v16 (F := Ideal) (V c main_arg1) (V c main_arg11) (((cfg2.win 2).blk t).view.emb (ValueIdx.ix2 p q))
  refine (pay_apply (iblk2 V c 0 t) (iblk2 V c 1 t) p q).trans ?_
  refine Eq.trans ?_ (Cert.ReferenceIdeal.Read.val_main_v16_apply (V c main_arg1) (V c main_arg11) (((cfg2.win 2).blk t).view.emb (ValueIdx.ix2 p q))).symm
  refine Finset.sum_congr rfl fun k _ => ?_
  show @HMul.hMul EReal EReal EReal _ (V c main_arg1 (((cfg2.win 0).blk t).view.emb (ValueIdx.ix2 p k))) (V c main_arg11 (((cfg2.win 1).blk t).view.emb (ValueIdx.ix2 k q))) = _
  -- the block of x at (p, k) is x at row 2000 t + p, column k
  have h0 : ((cfg2.win 0).blk t).view.emb (ValueIdx.ix2 p k)
      = Cert.ReferenceIdeal.Read.lidx_main_v16 (((cfg2.win 2).blk t).view.emb (ValueIdx.ix2 p q)) k := by
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * k.val = k.val; omega
  -- the weight's block at (k, q) is W at (k, q)
  have h1 : ((cfg2.win 1).blk t).view.emb (ValueIdx.ix2 k q)
      = Cert.ReferenceIdeal.Read.ridx_main_v16 (((cfg2.win 2).blk t).view.emb (ValueIdx.ix2 p q)) k := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  rw [h0, h1]

/-- An index of the result array is in point t's block iff its row is one of the block's 2000 rows (and its column
    one of the 128). -/
theorem mem_blk (t : Fin cfg2.N) (i : S50000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v13).slice (win2_2.rect t)).set ↔ _
  rw [View.set_slice_whole, Rect.mem_set_unit]
  exact Iff.rfl

/-- The blocks cover the result array: row r is in block r / 2000. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

end ProjBp

/-- After the 25 points the result array holds the reference's x · W. -/
theorem proj_Bp (V : (c : Dev nD) → (b : Ref sig .tc) → Buf (Elt Ideal) ((c : Thread nD τ).loc b)) (c : Dev nD) :
    (dat2 V c).arrAt 2 cfg2.N = Cert.ReferenceIdeal.Read.val_main_v16 (F := Ideal) (V c main_arg1) (V c main_arg11) :=
  (dat2 V c).arrAt_eq_of_cover 2 _ (fun t _ => ProjBp.flushed_eq V c t) ProjBp.covered

end Cert.KernelIdeal.Bridge

end
-- ==== Proof.ProjCc.lean ====
/-
  The projection x · W of the Cc graph (10000 nodes, 128 features), computed on blocks of 2000 rows.

  A BLOCK is 2000 consecutive rows of a [10000, 128] array: block t holds rows 2000 t … 2000 t + 1999, all 128 columns.
  The grid has 5 points; point t loads block t of x and the whole [128, 128] weight W, multiplies them on the matrix
  unit into a zero accumulator, and writes the product back as block t of the result. The casts to bf16 before the
  product are the identity at the ideal values.

  Entry (p, q) of the block product is the sum over k of (block of x)(p, k) · W(k, q): it depends on row 2000 t + p of x and
  on column q of W and on nothing else. That is entry (2000 t + p, q) of the full product x · W, which is what the
  reference's dot_general holds there. Every row r lies in exactly one block (block r / 2000), so after the 5 points the
  result array is x · W.
-/
import proofs.«109767_j9457517986562_1_alg».proof.Proof.Gen.KernelIdeal.Frame
import proofs.«109767_j9457517986562_1_alg».proof.Proof.Spec
import proofs.«109767_j9457517986562_1_alg».proof.Proof.LibMatmulRows

set_option maxRecDepth 16384

noncomputable section

open scoped BigOperators

namespace Cert.KernelIdeal.Bridge

open Cert.KernelIdeal Cert.KernelIdeal.Gen Idealize.ShloMosaic Idealize.ShloMosaic.TcCoe Idealize.SL.Sem Idealize.ShloMosaic.StableHlo
open Idealize.ShloMosaic.Pipeline (Dat Cfg Window)

namespace ProjCc

/-- The offset of a whole-buffer access: zero on both axes. -/
theorem hz : (![0, 0] : Fin 2 → Nat) = fun _ => 0 := funext fun a => by fin_cases a <;> rfl

/-- The body's payload on a block of x and the weight, at entry (p, q): row p of the block against column q of W.
    The two truncations are the identity at the ideal values and the accumulator is zero. -/
theorem pay_apply (x0 : Vec Ideal S2000x128 .f32) (x1 : Vec Ideal S128x128 .f32) (p : Fin 2000) (q : Fin 128) :
    k4_pay1 x0 x1 (ValueIdx.ix2 p q) = ∑ k : Fin 128, x0 (ValueIdx.ix2 p k) * x1 (ValueIdx.ix2 k q) :=
  Cert.Bridge.matmul_plain_zero_apply 2000 128 128 none x0 x1 p q

/-- The index maps, decided over the grid: the block of x a point loads is the block of rows it writes (block t, column
    block 0), and the weight's only block is (0, 0). -/
theorem idx_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) ≤ 4
    ∧ win4_2.index t (1 : Fin 2) = 0 :=
  (by decide +kernel : ∀ t : Fin grid4.N, _)

/-- Every block of rows is some point's. -/
theorem idx_onto : ∀ (b : Fin 5), ∃ t : Fin cfg4.N, win4_2.index t = ![b.val, 0] :=
  (by decide +kernel : ∀ (b : Fin 5), ∃ t : Fin grid4.N, win4_2.index t = ![b.val, 0])

variable (V : (c : Dev nD) → (b : Ref sig .tc) → Buf (Elt Ideal) ((c : Thread nD τ).loc b))

/-- WHAT POINT t WRITES BACK is block t of x · W: entry (p, q) of the block product is the sum over k of
    x(2000 t + p, k) · W(k, q), which is entry (2000 t + p, q) of the full product. -/
theorem flushed_eq (c : Dev nD) (t : Fin cfg4.N) :
    (dat4 V c).flushed 2 t
      = ((cfg4.win 2).blk t).view.read (Elt Ideal) (Cert.ReferenceIdeal.Read.val_main_v32 (F := Ideal) (V c main_arg2) (V c main_arg13)) := by
  show (cfg4.win 2).cut (grid4.coords t) ((dat4 V c).after 2 t) = _
  rw [after4_2]
  unfold out4_2
  rw [View.canon_unit_zero hz]
  simp only [View.ld_unit_zero (S := S2000x128) hz, View.ld_unit_zero (S := S128x128) hz]
  obtain ⟨e0, e1, e2, e3, e4, e5⟩ := idx_facts t
  funext j
  obtain ⟨p, q, rfl⟩ : ∃ (p : Fin 2000) (q : Fin 128), j = ValueIdx.ix2 p q := ⟨j 0, j 1, ValueIdx.eq_ix2 j⟩
  show k4_pay1 (iblk4 V c 0 t) (iblk4 V c 1 t) (ValueIdx.ix2 p q)
    = Cert.ReferenceIdeal.Read.val_main_v32 (F := Ideal) (V c main_arg2) (V c main_arg13) (((cfg4.win 2).blk t).view.emb (ValueIdx.ix2 p q))
  refine (pay_apply (iblk4 V c 0 t) (iblk4 V c 1 t) p q).trans ?_
  refine Eq.trans ?_ (Cert.ReferenceIdeal.Read.val_main_v32_apply (V c main_arg2) (V c main_arg13) (((cfg4.win 2).blk t).view.emb (ValueIdx.ix2 p q))).symm
  refine Finset.sum_congr rfl fun k _ => ?_
  show @HMul.hMul EReal EReal EReal _ (V c main_arg2 (((cfg4.win 0).blk t).view.emb (ValueIdx.ix2 p k))) (V c main_arg13 (((cfg4.win 1).blk t).view.emb (ValueIdx.ix2 k q))) = _
  -- the block of x at (p, k) is x at row 2000 t + p, column k
  have h0 : ((cfg4.win 0).blk t).view.emb (ValueIdx.ix2 p k)
      = Cert.ReferenceIdeal.Read.lidx_main_v32 (((cfg4.win 2).blk t).view.emb (ValueIdx.ix2 p q)) k := by
    funext a; apply Fin.ext
    match a with
    | ⟨0, _⟩ => show win4_0.index t (0 : Fin 2) * 2000 + 1 * p.val = win4_2.index t (0 : Fin 2) * 2000 + 1 * p.val; omega
    | ⟨1, _⟩ => show win4_0.index t (1 : Fin 2) * 128 + 1 * k.val = k.val; omega
  -- the weight's block at (k, q) is W at (k, q)
  have h1 : ((cfg4.win 1).blk t).view.emb (ValueIdx.ix2 k q)
      = Cert.ReferenceIdeal.Read.ridx_main_v32 (((cfg4.win 2).blk t).view.emb (ValueIdx.ix2 p q)) k := by
    funext a; apply Fin.ext
    match a with
    | ⟨0, _⟩ => show win4_1.index t (0 : Fin 2) * 128 + 1 * k.val = k.val; omega
    | ⟨1, _⟩ => show win4_1.index t (1 : Fin 2) * 128 + 1 * q.val = win4_2.index t (1 : Fin 2) * 128 + 1 * q.val; omega
  rw [h0, h1]

/-- An index of the result array is in point t's block iff its row is one of the block's 2000 rows (and its column
    one of the 128). -/
theorem mem_blk (t : Fin cfg4.N) (i : S10000x128.Idx) :
    i ∈ ((cfg4.win 2).blk t).view.set ↔ ∀ a : Fin 2, win4_2.index t a * S2000x128.size a ≤ (i a).val
      ∧ (i a).val < win4_2.index t a * S2000x128.size a + S2000x128.size a := by
  show i ∈ ((View.whole main_v26).slice (win4_2.rect t)).set ↔ _
  rw [View.set_slice_whole, Rect.mem_set_unit]
  exact Iff.rfl

/-- The blocks cover the result array: row r is in block r / 2000. -/
theorem covered (i : S10000x128.Idx) :
    ∃ t : Fin cfg4.N, (cfg4.win 2).flush t = true ∧ i ∈ ((cfg4.win 2).blk t).view.set := by
  have hi0 : (i 0).val < 10000 := (i 0).isLt
  have hi1 : (i 1).val < 128 := (i 1).isLt
  obtain ⟨t, ht⟩ := idx_onto ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

end ProjCc

/-- After the 5 points the result array holds the reference's x · W. -/
theorem proj_Cc (V : (c : Dev nD) → (b : Ref sig .tc) → Buf (Elt Ideal) ((c : Thread nD τ).loc b)) (c : Dev nD) :
    (dat4 V c).arrAt 2 cfg4.N = Cert.ReferenceIdeal.Read.val_main_v32 (F := Ideal) (V c main_arg2) (V c main_arg13) :=
  (dat4 V c).arrAt_eq_of_cover 2 _ (fun t _ => ProjCc.flushed_eq V c t) ProjCc.covered

end Cert.KernelIdeal.Bridge

end
-- ==== Proof.LayerMf.lean ====
/-
  The combine step of the graph with 20000 nodes, block of rows by block of rows.

  The step's result array has 20000 rows of 128 entries and is produced in 10 blocks of 2000 consecutive rows. A block
  is the part of an array a grid point works on: point `t` reads rows `2000 t … 2000 t + 1999` of the aggregate and of
  the input features, reads the whole one-row bias (the same block at every point), and writes the same rows of the
  result. Entry `(p, q)` of the block written at point `t` depends on three entries only: entry `(p, q)` of the aggregate's
  block, entry `(p, q)` of the features' block and entry `(0, q)` of the bias row, and is
  `max (agg + bias) 0 + x` of them. Entry `(p, q)` of a block of rows is entry `(2000 t + p, q)` of its array, so the
  block written at `t` is block `t` of the whole-array combine step; row `r` lies in the block of point `r / 2000`, so the
  blocks cover the array and the result array is the whole-array combine step of the three arrays the region finds.
-/
import proofs.«109767_j9457517986562_1_alg».proof.Proof.Gen.KernelIdeal.Frame
import proofs.«109767_j9457517986562_1_alg».proof.Proof.Spec

set_option maxRecDepth 16384

noncomputable section

namespace Cert.KernelIdeal.Bridge

open Cert.KernelIdeal Cert.KernelIdeal.Gen Idealize.ShloMosaic Idealize.ShloMosaic.TcCoe Idealize.SL.Sem Idealize.ShloMosaic.StableHlo
open Idealize.ShloMosaic.Pipeline (Dat Cfg Window)

/-- The zero offsets of a whole-block access, as a constant function. -/
theorem combine_zero_off_Mf : (![0, 0] : Fin 2 → Nat) = fun _ => 0 := funext fun a => by fin_cases a <;> rfl

/-- ONE ENTRY of what the body computes from three blocks: entry `(p, q)` is `max (x0 (p, q) + x2 (0, q)) 0 + x1 (p, q)`
    (`x0` the aggregate's block, `x1` the features' block, `x2` the bias row laid over every row of the block). -/
theorem combine_pay_Mf_apply (x0 x1 : Vec Ideal S2000x128 .f32) (x2 : Vec Ideal S1x128 .f32) (p : Fin 2000) (q : Fin 128) :
    k1_pay1 x0 x1 x2 (ValueIdx.ix2 p q)
      = max (x0 (ValueIdx.ix2 p q) + x2 (ValueIdx.ix2 (0 : Fin 1) q)) (Ideal.ofBits .f32 0x00000000#32) + x1 (ValueIdx.ix2 p q) := by
  have hb : broadcastTo S2000x128 x2 broadcasts_S1x128_S2000x128 (ValueIdx.ix2 p q) = x2 (ValueIdx.ix2 (0 : Fin 1) q) :=
    broadcastTo_apply x2 broadcasts_S1x128_S2000x128 (ValueIdx.ix2 p q) (ValueIdx.ix2 (0 : Fin 1) q) (fun a => match a with
      | ⟨0, _⟩ => by show 0 = if (1 : Nat) = 1 then 0 else _; rw [if_pos rfl]
      | ⟨1, _⟩ => by show q.val = if (128 : Nat) = 1 then 0 else q.val; rw [if_neg (by decide)])
  unfold k1_pay1
  simp only [shapeCast_self]
  show max (x0 (ValueIdx.ix2 p q) + broadcastTo S2000x128 x2 broadcasts_S1x128_S2000x128 (ValueIdx.ix2 p q)) (Ideal.ofBits .f32 0x00000000#32) + x1 (ValueIdx.ix2 p q) = _
  rw [hb]

/-- The index maps, decided over the grid: the aggregate's, the features' and the result's blocks are the same block of
    rows, block `t` at point `t`, all 128 columns; the bias row's block is the whole row at every point. -/
theorem combine_idx_Mf : ∀ t : Fin cfg1.N, win1_0.index t (0 : Fin 2) = win1_3.index t (0 : Fin 2)
    ∧ win1_0.index t (1 : Fin 2) = win1_3.index t (1 : Fin 2)
    ∧ win1_1.index t (0 : Fin 2) = win1_3.index t (0 : Fin 2)
    ∧ win1_1.index t (1 : Fin 2) = win1_3.index t (1 : Fin 2)
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- ONE ENTRY, IN ARRAY COORDINATES: the three block entries that entry `(p, q)` of point `t`'s result block depends on
    are entries of the aggregate `A`, the features `X` and the bias row `B` at the array position of that result entry
    (entry `(p, q)` of a block of rows is entry `(index × 2000 + p, index × 128 + q)` of its array; the bias row's only
    block is the row itself), so `max (agg + b) 0 + x` of them is the whole-array combine step at that position. -/
theorem combine_block_Mf_apply (A X : (⟨S20000x128, .f32⟩ : BufTy).Contents (Elt Ideal)) (B : (⟨S1x128, .f32⟩ : BufTy).Contents (Elt Ideal))
    (t : Fin cfg1.N) (p : Fin 2000) (q : Fin 128) :
    max (A (((cfg1.win 0).blk t).view.emb (ValueIdx.ix2 p q)) + B (((cfg1.win 2).blk t).view.emb (ValueIdx.ix2 (0 : Fin 1) q))) (Ideal.ofBits .f32 0x00000000#32)
        + X (((cfg1.win 1).blk t).view.emb (ValueIdx.ix2 p q))
      = Cert.Gcn.combineMf (F := Ideal) A X B (((cfg1.win 3).blk t).view.emb (ValueIdx.ix2 p q)) := by
  obtain ⟨e0, e1, e2, e3, e4, e5, e6, e7⟩ := combine_idx_Mf t
  rw [Cert.Gcn.combineMf_apply]
  have h0 : ((cfg1.win 0).blk t).view.emb (ValueIdx.ix2 p q) = ((cfg1.win 3).blk t).view.emb (ValueIdx.ix2 p q) := by
    funext a; apply Fin.ext
    match a with
    | ⟨0, _⟩ => show win1_0.index t (0 : Fin 2) * 2000 + 1 * p.val = win1_3.index t (0 : Fin 2) * 2000 + 1 * p.val; omega
    | ⟨1, _⟩ => show win1_0.index t (1 : Fin 2) * 128 + 1 * q.val = win1_3.index t (1 : Fin 2) * 128 + 1 * q.val; omega
  have h1 : ((cfg1.win 1).blk t).view.emb (ValueIdx.ix2 p q) = ((cfg1.win 3).blk t).view.emb (ValueIdx.ix2 p q) := by
    funext a; apply Fin.ext
    match a with
    | ⟨0, _⟩ => show win1_1.index t (0 : Fin 2) * 2000 + 1 * p.val = win1_3.index t (0 : Fin 2) * 2000 + 1 * p.val; omega
    | ⟨1, _⟩ => show win1_1.index t (1 : Fin 2) * 128 + 1 * q.val = win1_3.index t (1 : Fin 2) * 128 + 1 * q.val; omega
  have h2 : ((cfg1.win 2).blk t).view.emb (ValueIdx.ix2 (0 : Fin 1) q)
      = Cert.ReferenceIdeal.Read.idx_main_v12 (((cfg1.win 3).blk t).view.emb (ValueIdx.ix2 p q)) := by
    funext a; apply Fin.ext
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  rw [h0, h1, h2]

/-- WHAT POINT `t` WRITES BACK is block `t` of the whole-array combine step of the arrays the region finds. -/
theorem combine_flushed_Mf (V : (c : Dev nD) → (b : Ref sig .tc) → Buf (Elt Ideal) ((c : Thread nD τ).loc b)) (c : Dev nD) (t : Fin cfg1.N) :
    (dat1 V c).flushed 3 t
      = ((cfg1.win 3).blk t).view.read (Elt Ideal) (Cert.Gcn.combineMf (F := Ideal) (V c main_v10) (V c main_arg0) (V c main_v11)) := by
  show (cfg1.win 3).cut (grid1.coords t) ((dat1 V c).after 3 t) = _
  rw [after1_3]
  unfold out1_3
  rw [View.canon_unit_zero combine_zero_off_Mf]
  simp only [View.ld_unit_zero (S := S2000x128) combine_zero_off_Mf, View.ld_unit_zero (S := S1x128) combine_zero_off_Mf]
  funext j
  obtain ⟨p, q, rfl⟩ : ∃ (p : Fin 2000) (q : Fin 128), j = ValueIdx.ix2 p q := ⟨j 0, j 1, ValueIdx.eq_ix2 j⟩
  refine (combine_pay_Mf_apply _ _ _ p q).trans ?_
  exact combine_block_Mf_apply (V c main_v10) (V c main_arg0) (V c main_v11) t p q

/-- An entry of the result array is in point `t`'s block iff each coordinate is in the block's range on its axis. -/
theorem combine_mem_blk_Mf (t : Fin cfg1.N) (i : S20000x128.Idx) :
    i ∈ ((cfg1.win 3).blk t).view.set
      ↔ ∀ a : Fin 2, win1_3.index t a * S2000x128.size a ≤ (i a).val ∧ (i a).val < win1_3.index t a * S2000x128.size a + S2000x128.size a := by
  show i ∈ ((View.whole main_v12).slice (win1_3.rect t)).set ↔ _
  rw [View.set_slice_whole, Rect.mem_set_unit]
  exact Iff.rfl

/-- Every entry of the result array is written back at some point: row `r` at point `r / 2000`. -/
theorem combine_covered_Mf (i : S20000x128.Idx) :
    ∃ t : Fin cfg1.N, (cfg1.win 3).flush t = true ∧ i ∈ ((cfg1.win 3).blk t).view.set := by
  have hi0 : (i 0).val < 20000 := (i 0).isLt
  have hi1 : (i 1).val < 128 := (i 1).isLt
  have hN : (i 0).val / 2000 < grid1.N := by rw [N_1]; omega
  obtain ⟨e0, e1, e2, e3, e4, e5, e6, e7⟩ := combine_idx_Mf ⟨(i 0).val / 2000, hN⟩
  have e6' : win1_3.index ⟨(i 0).val / 2000, hN⟩ (0 : Fin 2) = (i 0).val / 2000 := e6
  refine ⟨⟨(i 0).val / 2000, hN⟩, flush1_3 _, ?_⟩
  rw [combine_mem_blk_Mf]
  intro a
  match a with
  | ⟨0, _⟩ => show win1_3.index ⟨(i 0).val / 2000, hN⟩ (0 : Fin 2) * 2000 ≤ (i 0).val ∧ (i 0).val < win1_3.index ⟨(i 0).val / 2000, hN⟩ (0 : Fin 2) * 2000 + 2000; omega
  | ⟨1, _⟩ => show win1_3.index ⟨(i 0).val / 2000, hN⟩ (1 : Fin 2) * 128 ≤ (i 1).val ∧ (i 1).val < win1_3.index ⟨(i 0).val / 2000, hN⟩ (1 : Fin 2) * 128 + 128; omega

/-- REGION 1: the result array after the region is the whole-array combine step `max (agg + b) 0 + x` of the
    aggregate, the input features and the bias row as the region finds them. -/
theorem layer_Mf (V : (c : Dev nD) → (b : Ref sig .tc) → Buf (Elt Ideal) ((c : Thread nD τ).loc b)) (c : Dev nD) :
    (dat1 V c).arrAt 3 cfg1.N = Cert.Gcn.combineMf (F := Ideal) (V c main_v10) (V c main_arg0) (V c main_v11) :=
  (dat1 V c).arrAt_eq_of_cover 3 _ (fun t _ => combine_flushed_Mf V c t) combine_covered_Mf

end Cert.KernelIdeal.Bridge

end
-- ==== Proof.LayerBp.lean ====
/-
  The combine step of the graph with 50000 nodes, block of rows by block of rows.

  The step's result array has 50000 rows of 128 entries and is produced in 25 blocks of 2000 consecutive rows. A block
  is the part of an array a grid point works on: point `t` reads rows `2000 t … 2000 t + 1999` of the aggregate and of
  the input features, reads the whole one-row bias (the same block at every point), and writes the same rows of the
  result. Entry `(p, q)` of the block written at point `t` depends on three entries only: entry `(p, q)` of the aggregate's
  block, entry `(p, q)` of the features' block and entry `(0, q)` of the bias row, and is
  `max (agg + bias) 0 + x` of them. Entry `(p, q)` of a block of rows is entry `(2000 t + p, q)` of its array, so the
  block written at `t` is block `t` of the whole-array combine step; row `r` lies in the block of point `r / 2000`, so the
  blocks cover the array and the result array is the whole-array combine step of the three arrays the region finds.
-/
import proofs.«109767_j9457517986562_1_alg».proof.Proof.Gen.KernelIdeal.Frame
import proofs.«109767_j9457517986562_1_alg».proof.Proof.Spec

set_option maxRecDepth 16384

noncomputable section

namespace Cert.KernelIdeal.Bridge

open Cert.KernelIdeal Cert.KernelIdeal.Gen Idealize.ShloMosaic Idealize.ShloMosaic.TcCoe Idealize.SL.Sem Idealize.ShloMosaic.StableHlo
open Idealize.ShloMosaic.Pipeline (Dat Cfg Window)

/-- The zero offsets of a whole-block access, as a constant function. -/
theorem combine_zero_off_Bp : (![0, 0] : Fin 2 → Nat) = fun _ => 0 := funext fun a => by fin_cases a <;> rfl

/-- ONE ENTRY of what the body computes from three blocks: entry `(p, q)` is `max (x0 (p, q) + x2 (0, q)) 0 + x1 (p, q)`
    (`x0` the aggregate's block, `x1` the features' block, `x2` the bias row laid over every row of the block). -/
theorem combine_pay_Bp_apply (x0 x1 : Vec Ideal S2000x128 .f32) (x2 : Vec Ideal S1x128 .f32) (p : Fin 2000) (q : Fin 128) :
    k3_pay1 x0 x1 x2 (ValueIdx.ix2 p q)
      = max (x0 (ValueIdx.ix2 p q) + x2 (ValueIdx.ix2 (0 : Fin 1) q)) (Ideal.ofBits .f32 0x00000000#32) + x1 (ValueIdx.ix2 p q) := by
  have hb : broadcastTo S2000x128 x2 broadcasts_S1x128_S2000x128 (ValueIdx.ix2 p q) = x2 (ValueIdx.ix2 (0 : Fin 1) q) :=
    broadcastTo_apply x2 broadcasts_S1x128_S2000x128 (ValueIdx.ix2 p q) (ValueIdx.ix2 (0 : Fin 1) q) (fun a => match a with
      | ⟨0, _⟩ => by show 0 = if (1 : Nat) = 1 then 0 else _; rw [if_pos rfl]
      | ⟨1, _⟩ => by show q.val = if (128 : Nat) = 1 then 0 else q.val; rw [if_neg (by decide)])
  unfold k3_pay1
  simp only [shapeCast_self]
  show max (x0 (ValueIdx.ix2 p q) + broadcastTo S2000x128 x2 broadcasts_S1x128_S2000x128 (ValueIdx.ix2 p q)) (Ideal.ofBits .f32 0x00000000#32) + x1 (ValueIdx.ix2 p q) = _
  rw [hb]

/-- The index maps, decided over the grid: the aggregate's, the features' and the result's blocks are the same block of
    rows, block `t` at point `t`, all 128 columns; the bias row's block is the whole row at every point. -/
theorem combine_idx_Bp : ∀ t : Fin cfg3.N, win3_0.index t (0 : Fin 2) = win3_3.index t (0 : Fin 2)
    ∧ win3_0.index t (1 : Fin 2) = win3_3.index t (1 : Fin 2)
    ∧ win3_1.index t (0 : Fin 2) = win3_3.index t (0 : Fin 2)
    ∧ win3_1.index t (1 : Fin 2) = win3_3.index t (1 : Fin 2)
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- ONE ENTRY, IN ARRAY COORDINATES: the three block entries that entry `(p, q)` of point `t`'s result block depends on
    are entries of the aggregate `A`, the features `X` and the bias row `B` at the array position of that result entry
    (entry `(p, q)` of a block of rows is entry `(index × 2000 + p, index × 128 + q)` of its array; the bias row's only
    block is the row itself), so `max (agg + b) 0 + x` of them is the whole-array combine step at that position. -/
theorem combine_block_Bp_apply (A X : (⟨S50000x128, .f32⟩ : BufTy).Contents (Elt Ideal)) (B : (⟨S1x128, .f32⟩ : BufTy).Contents (Elt Ideal))
    (t : Fin cfg3.N) (p : Fin 2000) (q : Fin 128) :
    max (A (((cfg3.win 0).blk t).view.emb (ValueIdx.ix2 p q)) + B (((cfg3.win 2).blk t).view.emb (ValueIdx.ix2 (0 : Fin 1) q))) (Ideal.ofBits .f32 0x00000000#32)
        + X (((cfg3.win 1).blk t).view.emb (ValueIdx.ix2 p q))
      = Cert.Gcn.combineBp (F := Ideal) A X B (((cfg3.win 3).blk t).view.emb (ValueIdx.ix2 p q)) := by
  obtain ⟨e0, e1, e2, e3, e4, e5, e6, e7⟩ := combine_idx_Bp t
  rw [Cert.Gcn.combineBp_apply]
  have h0 : ((cfg3.win 0).blk t).view.emb (ValueIdx.ix2 p q) = ((cfg3.win 3).blk t).view.emb (ValueIdx.ix2 p q) := by
    funext a; apply Fin.ext
    match a with
    | ⟨0, _⟩ => show win3_0.index t (0 : Fin 2) * 2000 + 1 * p.val = win3_3.index t (0 : Fin 2) * 2000 + 1 * p.val; omega
    | ⟨1, _⟩ => show win3_0.index t (1 : Fin 2) * 128 + 1 * q.val = win3_3.index t (1 : Fin 2) * 128 + 1 * q.val; omega
  have h1 : ((cfg3.win 1).blk t).view.emb (ValueIdx.ix2 p q) = ((cfg3.win 3).blk t).view.emb (ValueIdx.ix2 p q) := by
    funext a; apply Fin.ext
    match a with
    | ⟨0, _⟩ => show win3_1.index t (0 : Fin 2) * 2000 + 1 * p.val = win3_3.index t (0 : Fin 2) * 2000 + 1 * p.val; omega
    | ⟨1, _⟩ => show win3_1.index t (1 : Fin 2) * 128 + 1 * q.val = win3_3.index t (1 : Fin 2) * 128 + 1 * q.val; omega
  have h2 : ((cfg3.win 2).blk t).view.emb (ValueIdx.ix2 (0 : Fin 1) q)
      = Cert.ReferenceIdeal.Read.idx_main_v28 (((cfg3.win 3).blk t).view.emb (ValueIdx.ix2 p q)) := by
    funext a; apply Fin.ext
    match a with
    | ⟨0, _⟩ => show win3_2.index t (0 : Fin 2) * 1 + 1 * 0 = 0; omega
    | ⟨1, _⟩ => show win3_2.index t (1 : Fin 2) * 128 + 1 * q.val = win3_3.index t (1 : Fin 2) * 128 + 1 * q.val; omega
  rw [h0, h1, h2]

/-- WHAT POINT `t` WRITES BACK is block `t` of the whole-array combine step of the arrays the region finds. -/
theorem combine_flushed_Bp (V : (c : Dev nD) → (b : Ref sig .tc) → Buf (Elt Ideal) ((c : Thread nD τ).loc b)) (c : Dev nD) (t : Fin cfg3.N) :
    (dat3 V c).flushed 3 t
      = ((cfg3.win 3).blk t).view.read (Elt Ideal) (Cert.Gcn.combineBp (F := Ideal) (V c main_v23) (V c main_arg1) (V c main_v24)) := by
  show (cfg3.win 3).cut (grid3.coords t) ((dat3 V c).after 3 t) = _
  rw [after3_3]
  unfold out3_3
  rw [View.canon_unit_zero combine_zero_off_Bp]
  simp only [View.ld_unit_zero (S := S2000x128) combine_zero_off_Bp, View.ld_unit_zero (S := S1x128) combine_zero_off_Bp]
  funext j
  obtain ⟨p, q, rfl⟩ : ∃ (p : Fin 2000) (q : Fin 128), j = ValueIdx.ix2 p q := ⟨j 0, j 1, ValueIdx.eq_ix2 j⟩
  refine (combine_pay_Bp_apply _ _ _ p q).trans ?_
  exact combine_block_Bp_apply (V c main_v23) (V c main_arg1) (V c main_v24) t p q

/-- An entry of the result array is in point `t`'s block iff each coordinate is in the block's range on its axis. -/
theorem combine_mem_blk_Bp (t : Fin cfg3.N) (i : S50000x128.Idx) :
    i ∈ ((cfg3.win 3).blk t).view.set
      ↔ ∀ a : Fin 2, win3_3.index t a * S2000x128.size a ≤ (i a).val ∧ (i a).val < win3_3.index t a * S2000x128.size a + S2000x128.size a := by
  show i ∈ ((View.whole main_v25).slice (win3_3.rect t)).set ↔ _
  rw [View.set_slice_whole, Rect.mem_set_unit]
  exact Iff.rfl

/-- Every entry of the result array is written back at some point: row `r` at point `r / 2000`. -/
theorem combine_covered_Bp (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : (i 0).val / 2000 < grid3.N := by rw [N_3]; omega
  obtain ⟨e0, e1, e2, e3, e4, e5, e6, e7⟩ := combine_idx_Bp ⟨(i 0).val / 2000, hN⟩
  have e6' : win3_3.index ⟨(i 0).val / 2000, hN⟩ (0 : Fin 2) = (i 0).val / 2000 := e6
  refine ⟨⟨(i 0).val / 2000, hN⟩, flush3_3 _, ?_⟩
  rw [combine_mem_blk_Bp]
  intro a
  match a with
  | ⟨0, _⟩ => show win3_3.index ⟨(i 0).val / 2000, hN⟩ (0 : Fin 2) * 2000 ≤ (i 0).val ∧ (i 0).val < win3_3.index ⟨(i 0).val / 2000, hN⟩ (0 : Fin 2) * 2000 + 2000; omega
  | ⟨1, _⟩ => show win3_3.index ⟨(i 0).val / 2000, hN⟩ (1 : Fin 2) * 128 ≤ (i 1).val ∧ (i 1).val < win3_3.index ⟨(i 0).val / 2000, hN⟩ (1 : Fin 2) * 128 + 128; omega

/-- REGION 3: the result array after the region is the whole-array combine step `max (agg + b) 0 + x` of the
    aggregate, the input features and the bias row as the region finds them. -/
theorem layer_Bp (V : (c : Dev nD) → (b : Ref sig .tc) → Buf (Elt Ideal) ((c : Thread nD τ).loc b)) (c : Dev nD) :
    (dat3 V c).arrAt 3 cfg3.N = Cert.Gcn.combineBp (F := Ideal) (V c main_v23) (V c main_arg1) (V c main_v24) :=
  (dat3 V c).arrAt_eq_of_cover 3 _ (fun t _ => combine_flushed_Bp V c t) combine_covered_Bp

end Cert.KernelIdeal.Bridge

end
-- ==== Proof.LayerCc.lean ====
/-
  The combine step of the graph with 10000 nodes, block of rows by block of rows.

  The step's result array has 10000 rows of 128 entries and is produced in 5 blocks of 2000 consecutive rows. A block
  is the part of an array a grid point works on: point `t` reads rows `2000 t … 2000 t + 1999` of the aggregate and of
  the input features, reads the whole one-row bias (the same block at every point), and writes the same rows of the
  result. Entry `(p, q)` of the block written at point `t` depends on three entries only: entry `(p, q)` of the aggregate's
  block, entry `(p, q)` of the features' block and entry `(0, q)` of the bias row, and is
  `max (agg + bias) 0 + x` of them. Entry `(p, q)` of a block of rows is entry `(2000 t + p, q)` of its array, so the
  block written at `t` is block `t` of the whole-array combine step; row `r` lies in the block of point `r / 2000`, so the
  blocks cover the array and the result array is the whole-array combine step of the three arrays the region finds.
-/
import proofs.«109767_j9457517986562_1_alg».proof.Proof.Gen.KernelIdeal.Frame
import proofs.«109767_j9457517986562_1_alg».proof.Proof.Spec

set_option maxRecDepth 16384

noncomputable section

namespace Cert.KernelIdeal.Bridge

open Cert.KernelIdeal Cert.KernelIdeal.Gen Idealize.ShloMosaic Idealize.ShloMosaic.TcCoe Idealize.SL.Sem Idealize.ShloMosaic.StableHlo
open Idealize.ShloMosaic.Pipeline (Dat Cfg Window)

/-- The zero offsets of a whole-block access, as a constant function. -/
theorem combine_zero_off_Cc : (![0, 0] : Fin 2 → Nat) = fun _ => 0 := funext fun a => by fin_cases a <;> rfl

/-- ONE ENTRY of what the body computes from three blocks: entry `(p, q)` is `max (x0 (p, q) + x2 (0, q)) 0 + x1 (p, q)`
    (`x0` the aggregate's block, `x1` the features' block, `x2` the bias row laid over every row of the block). -/
theorem combine_pay_Cc_apply (x0 x1 : Vec Ideal S2000x128 .f32) (x2 : Vec Ideal S1x128 .f32) (p : Fin 2000) (q : Fin 128) :
    k5_pay1 x0 x1 x2 (ValueIdx.ix2 p q)
      = max (x0 (ValueIdx.ix2 p q) + x2 (ValueIdx.ix2 (0 : Fin 1) q)) (Ideal.ofBits .f32 0x00000000#32) + x1 (ValueIdx.ix2 p q) := by
  have hb : broadcastTo S2000x128 x2 broadcasts_S1x128_S2000x128 (ValueIdx.ix2 p q) = x2 (ValueIdx.ix2 (0 : Fin 1) q) :=
    broadcastTo_apply x2 broadcasts_S1x128_S2000x128 (ValueIdx.ix2 p q) (ValueIdx.ix2 (0 : Fin 1) q) (fun a => match a with
      | ⟨0, _⟩ => by show 0 = if (1 : Nat) = 1 then 0 else _; rw [if_pos rfl]
      | ⟨1, _⟩ => by show q.val = if (128 : Nat) = 1 then 0 else q.val; rw [if_neg (by decide)])
  unfold k5_pay1
  simp only [shapeCast_self]
  show max (x0 (ValueIdx.ix2 p q) + broadcastTo S2000x128 x2 broadcasts_S1x128_S2000x128 (ValueIdx.ix2 p q)) (Ideal.ofBits .f32 0x00000000#32) + x1 (ValueIdx.ix2 p q) = _
  rw [hb]

/-- The index maps, decided over the grid: the aggregate's, the features' and the result's blocks are the same block of
    rows, block `t` at point `t`, all 128 columns; the bias row's block is the whole row at every point. -/
theorem combine_idx_Cc : ∀ t : Fin cfg5.N, win5_0.index t (0 : Fin 2) = win5_3.index t (0 : Fin 2)
    ∧ win5_0.index t (1 : Fin 2) = win5_3.index t (1 : Fin 2)
    ∧ win5_1.index t (0 : Fin 2) = win5_3.index t (0 : Fin 2)
    ∧ win5_1.index t (1 : Fin 2) = win5_3.index t (1 : Fin 2)
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- ONE ENTRY, IN ARRAY COORDINATES: the three block entries that entry `(p, q)` of point `t`'s result block depends on
    are entries of the aggregate `A`, the features `X` and the bias row `B` at the array position of that result entry
    (entry `(p, q)` of a block of rows is entry `(index × 2000 + p, index × 128 + q)` of its array; the bias row's only
    block is the row itself), so `max (agg + b) 0 + x` of them is the whole-array combine step at that position. -/
theorem combine_block_Cc_apply (A X : (⟨S10000x128, .f32⟩ : BufTy).Contents (Elt Ideal)) (B : (⟨S1x128, .f32⟩ : BufTy).Contents (Elt Ideal))
    (t : Fin cfg5.N) (p : Fin 2000) (q : Fin 128) :
    max (A (((cfg5.win 0).blk t).view.emb (ValueIdx.ix2 p q)) + B (((cfg5.win 2).blk t).view.emb (ValueIdx.ix2 (0 : Fin 1) q))) (Ideal.ofBits .f32 0x00000000#32)
        + X (((cfg5.win 1).blk t).view.emb (ValueIdx.ix2 p q))
      = Cert.Gcn.combineCc (F := Ideal) A X B (((cfg5.win 3).blk t).view.emb (ValueIdx.ix2 p q)) := by
  obtain ⟨e0, e1, e2, e3, e4, e5, e6, e7⟩ := combine_idx_Cc t
  rw [Cert.Gcn.combineCc_apply]
  have h0 : ((cfg5.win 0).blk t).view.emb (ValueIdx.ix2 p q) = ((cfg5.win 3).blk t).view.emb (ValueIdx.ix2 p q) := by
    funext a; apply Fin.ext
    match a with
    | ⟨0, _⟩ => show win5_0.index t (0 : Fin 2) * 2000 + 1 * p.val = win5_3.index t (0 : Fin 2) * 2000 + 1 * p.val; omega
    | ⟨1, _⟩ => show win5_0.index t (1 : Fin 2) * 128 + 1 * q.val = win5_3.index t (1 : Fin 2) * 128 + 1 * q.val; omega
  have h1 : ((cfg5.win 1).blk t).view.emb (ValueIdx.ix2 p q) = ((cfg5.win 3).blk t).view.emb (ValueIdx.ix2 p q) := by
    funext a; apply Fin.ext
    match a with
    | ⟨0, _⟩ => show win5_1.index t (0 : Fin 2) * 2000 + 1 * p.val = win5_3.index t (0 : Fin 2) * 2000 + 1 * p.val; omega
    | ⟨1, _⟩ => show win5_1.index t (1 : Fin 2) * 128 + 1 * q.val = win5_3.index t (1 : Fin 2) * 128 + 1 * q.val; omega
  have h2 : ((cfg5.win 2).blk t).view.emb (ValueIdx.ix2 (0 : Fin 1) q)
      = Cert.ReferenceIdeal.Read.idx_main_v44 (((cfg5.win 3).blk t).view.emb (ValueIdx.ix2 p q)) := by
    funext a; apply Fin.ext
    match a with
    | ⟨0, _⟩ => show win5_2.index t (0 : Fin 2) * 1 + 1 * 0 = 0; omega
    | ⟨1, _⟩ => show win5_2.index t (1 : Fin 2) * 128 + 1 * q.val = win5_3.index t (1 : Fin 2) * 128 + 1 * q.val; omega
  rw [h0, h1, h2]

/-- WHAT POINT `t` WRITES BACK is block `t` of the whole-array combine step of the arrays the region finds. -/
theorem combine_flushed_Cc (V : (c : Dev nD) → (b : Ref sig .tc) → Buf (Elt Ideal) ((c : Thread nD τ).loc b)) (c : Dev nD) (t : Fin cfg5.N) :
    (dat5 V c).flushed 3 t
      = ((cfg5.win 3).blk t).view.read (Elt Ideal) (Cert.Gcn.combineCc (F := Ideal) (V c main_v36) (V c main_arg2) (V c main_v37)) := by
  show (cfg5.win 3).cut (grid5.coords t) ((dat5 V c).after 3 t) = _
  rw [after5_3]
  unfold out5_3
  rw [View.canon_unit_zero combine_zero_off_Cc]
  simp only [View.ld_unit_zero (S := S2000x128) combine_zero_off_Cc, View.ld_unit_zero (S := S1x128) combine_zero_off_Cc]
  funext j
  obtain ⟨p, q, rfl⟩ : ∃ (p : Fin 2000) (q : Fin 128), j = ValueIdx.ix2 p q := ⟨j 0, j 1, ValueIdx.eq_ix2 j⟩
  refine (combine_pay_Cc_apply _ _ _ p q).trans ?_
  exact combine_block_Cc_apply (V c main_v36) (V c main_arg2) (V c main_v37) t p q

/-- An entry of the result array is in point `t`'s block iff each coordinate is in the block's range on its axis. -/
theorem combine_mem_blk_Cc (t : Fin cfg5.N) (i : S10000x128.Idx) :
    i ∈ ((cfg5.win 3).blk t).view.set
      ↔ ∀ a : Fin 2, win5_3.index t a * S2000x128.size a ≤ (i a).val ∧ (i a).val < win5_3.index t a * S2000x128.size a + S2000x128.size a := by
  show i ∈ ((View.whole main_v38).slice (win5_3.rect t)).set ↔ _
  rw [View.set_slice_whole, Rect.mem_set_unit]
  exact Iff.rfl

/-- Every entry of the result array is written back at some point: row `r` at point `r / 2000`. -/
theorem combine_covered_Cc (i : S10000x128.Idx) :
    ∃ t : Fin cfg5.N, (cfg5.win 3).flush t = true ∧ i ∈ ((cfg5.win 3).blk t).view.set := by
  have hi0 : (i 0).val < 10000 := (i 0).isLt
  have hi1 : (i 1).val < 128 := (i 1).isLt
  have hN : (i 0).val / 2000 < grid5.N := by rw [N_5]; omega
  obtain ⟨e0, e1, e2, e3, e4, e5, e6, e7⟩ := combine_idx_Cc ⟨(i 0).val / 2000, hN⟩
  have e6' : win5_3.index ⟨(i 0).val / 2000, hN⟩ (0 : Fin 2) = (i 0).val / 2000 := e6
  refine ⟨⟨(i 0).val / 2000, hN⟩, flush5_3 _, ?_⟩
  rw [combine_mem_blk_Cc]
  intro a
  match a with
  | ⟨0, _⟩ => show win5_3.index ⟨(i 0).val / 2000, hN⟩ (0 : Fin 2) * 2000 ≤ (i 0).val ∧ (i 0).val < win5_3.index ⟨(i 0).val / 2000, hN⟩ (0 : Fin 2) * 2000 + 2000; omega
  | ⟨1, _⟩ => show win5_3.index ⟨(i 0).val / 2000, hN⟩ (1 : Fin 2) * 128 ≤ (i 1).val ∧ (i 1).val < win5_3.index ⟨(i 0).val / 2000, hN⟩ (1 : Fin 2) * 128 + 128; omega

/-- REGION 5: the result array after the region is the whole-array combine step `max (agg + b) 0 + x` of the
    aggregate, the input features and the bias row as the region finds them. -/
theorem layer_Cc (V : (c : Dev nD) → (b : Ref sig .tc) → Buf (Elt Ideal) ((c : Thread nD τ).loc b)) (c : Dev nD) :
    (dat5 V c).arrAt 3 cfg5.N = Cert.Gcn.combineCc (F := Ideal) (V c main_v36) (V c main_arg2) (V c main_v37) :=
  (dat5 V c).arrAt_eq_of_cover 3 _ (fun t _ => combine_flushed_Cc V c t) combine_covered_Cc

end Cert.KernelIdeal.Bridge

end
-- ==== Proof.Results.lean ====
/-
  The three result buffers at the end of the kernel program's run, as the reference's own functions of the launch
  contents of the arguments. Per graph: the first kernel leaves `x · W` in its output array; the host stretch sums its
  rows along the edges (the reference's own two operations) and lays the bias out as a row; the second kernel leaves
  `max (agg + b) 0 + x`; nothing later in the program touches that array, and nothing before a kernel touches the
  arguments it reads.
-/
import proofs.«109767_j9457517986562_1_alg».proof.Proof.Fold
import proofs.«109767_j9457517986562_1_alg».proof.Proof.Host
import proofs.«109767_j9457517986562_1_alg».proof.Proof.ProjMf
import proofs.«109767_j9457517986562_1_alg».proof.Proof.ProjBp
import proofs.«109767_j9457517986562_1_alg».proof.Proof.ProjCc
import proofs.«109767_j9457517986562_1_alg».proof.Proof.LayerMf
import proofs.«109767_j9457517986562_1_alg».proof.Proof.LayerBp
import proofs.«109767_j9457517986562_1_alg».proof.Proof.LayerCc

set_option maxRecDepth 16384

noncomputable section

namespace Cert.KernelIdeal.Bridge

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## The graph with 20000 nodes -/

/-- This graph's result buffer ends holding the reference's layer of the launch contents of its five arguments: the
    combine kernel's array is `combine` of its three operands as it finds them — the aggregate the host summed from the
    projection kernel's array, which is `x · W`; the features, untouched since launch; the bias laid out as a row. -/
theorem result_Mf (c : Dev nD) :
    W9 m ρ c (Proc.devRef .tc main_v12)
      = Cert.ReferenceIdeal.Read.val_main_v15 (F := Ideal) (m ((c : Thread nD τ).loc main_arg0)) (m ((c : Thread nD τ).loc main_arg3)) (m ((c : Thread nD τ).loc main_arg4)) (m ((c : Thread nD τ).loc main_arg9)) (m ((c : Thread nD τ).loc main_arg10)) := by
  have eproj : W1 m ρ c (Proc.devRef .tc main_v0)
      = Cert.ReferenceIdeal.Read.val_main_v0 (F := Ideal) (m ((c : Thread nD τ).loc main_arg0)) (m ((c : Thread nD τ).loc main_arg9)) := by
    rw [W1_v0, proj_Mf (V0 m ρ) c]
  have eagg : V2 m ρ c main_v10
      = Cert.Gcn.aggMf (F := Ideal) (Cert.ReferenceIdeal.Read.val_main_v0 (F := Ideal) (m ((c : Thread nD τ).loc main_arg0)) (m ((c : Thread nD τ).loc main_arg9))) (m ((c : Thread nD τ).loc main_arg3)) (m ((c : Thread nD τ).loc main_arg4)) := by
    show StableHlo.after hostOps1 (W1 m ρ c) (Proc.devRef .tc main_v10) = _
    rw [host_agg_Mf (W1 m ρ c), eproj, W1_arg3 m ρ c, W1_arg4 m ρ c]
  have ebrow : V2 m ρ c main_v11 = Cert.ReferenceIdeal.Read.val_main_v11 (F := Ideal) (m ((c : Thread nD τ).loc main_arg10)) := by
    show StableHlo.after hostOps1 (W1 m ρ c) (Proc.devRef .tc main_v11) = _
    rw [host_brow_Mf (W1 m ρ c), W1_arg10 m ρ c]
  have ex : V2 m ρ c main_arg0 = (m ((c : Thread nD τ).loc main_arg0)) := W2_arg0 m ρ c
  rw [W9_v12, layer_Mf (V2 m ρ) c, eagg, ebrow, ex]
  exact (Cert.Gcn.val_main_v15_eq_layer _ _ _ _ _).symm

/-! ## The graph with 50000 nodes -/

/-- This graph's result buffer ends holding the reference's layer of the launch contents of its five arguments: the
    combine kernel's array is `combine` of its three operands as it finds them — the aggregate the host summed from the
    projection kernel's array, which is `x · W`; the features, untouched since launch; the bias laid out as a row. -/
theorem result_Bp (c : Dev nD) :
    W9 m ρ c (Proc.devRef .tc main_v25)
      = Cert.ReferenceIdeal.Read.val_main_v31 (F := Ideal) (m ((c : Thread nD τ).loc main_arg1)) (m ((c : Thread nD τ).loc main_arg5)) (m ((c : Thread nD τ).loc main_arg6)) (m ((c : Thread nD τ).loc main_arg11)) (m ((c : Thread nD τ).loc main_arg12)) := by
  have eproj : W4 m ρ c (Proc.devRef .tc main_v13)
      = Cert.ReferenceIdeal.Read.val_main_v16 (F := Ideal) (m ((c : Thread nD τ).loc main_arg1)) (m ((c : Thread nD τ).loc main_arg11)) := by
    rw [W4_v13, proj_Bp (V3 m ρ) c]
    exact congrArg₂ (Cert.ReferenceIdeal.Read.val_main_v16 (F := Ideal)) (W3_arg1 m ρ c) (W3_arg11 m ρ c)
  have eagg : V5 m ρ c main_v23
      = Cert.Gcn.aggBp (F := Ideal) (Cert.ReferenceIdeal.Read.val_main_v16 (F := Ideal) (m ((c : Thread nD τ).loc main_arg1)) (m ((c : Thread nD τ).loc main_arg11))) (m ((c : Thread nD τ).loc main_arg5)) (m ((c : Thread nD τ).loc main_arg6)) := by
    show StableHlo.after hostOps3 (W4 m ρ c) (Proc.devRef .tc main_v23) = _
    rw [host_agg_Bp (W4 m ρ c), eproj, W4_arg5 m ρ c, W4_arg6 m ρ c]
  have ebrow : V5 m ρ c main_v24 = Cert.ReferenceIdeal.Read.val_main_v27 (F := Ideal) (m ((c : Thread nD τ).loc main_arg12)) := by
    show StableHlo.after hostOps3 (W4 m ρ c) (Proc.devRef .tc main_v24) = _
    rw [host_brow_Bp (W4 m ρ c), W4_arg12 m ρ c]
  have ex : V5 m ρ c main_arg1 = (m ((c : Thread nD τ).loc main_arg1)) := W5_arg1 m ρ c
  rw [W9_v25, layer_Bp (V5 m ρ) c, eagg, ebrow, ex]
  exact (Cert.Gcn.val_main_v31_eq_layer _ _ _ _ _).symm

/-! ## The graph with 10000 nodes -/

/-- This graph's result buffer ends holding the reference's layer of the launch contents of its five arguments: the
    combine kernel's array is `combine` of its three operands as it finds them — the aggregate the host summed from the
    projection kernel's array, which is `x · W`; the features, untouched since launch; the bias laid out as a row. -/
theorem result_Cc (c : Dev nD) :
    W9 m ρ c (Proc.devRef .tc main_v38)
      = Cert.ReferenceIdeal.Read.val_main_v47 (F := Ideal) (m ((c : Thread nD τ).loc main_arg2)) (m ((c : Thread nD τ).loc main_arg7)) (m ((c : Thread nD τ).loc main_arg8)) (m ((c : Thread nD τ).loc main_arg13)) (m ((c : Thread nD τ).loc main_arg14)) := by
  have eproj : W7 m ρ c (Proc.devRef .tc main_v26)
      = Cert.ReferenceIdeal.Read.val_main_v32 (F := Ideal) (m ((c : Thread nD τ).loc main_arg2)) (m ((c : Thread nD τ).loc main_arg13)) := by
    rw [W7_v26, proj_Cc (V6 m ρ) c]
    exact congrArg₂ (Cert.ReferenceIdeal.Read.val_main_v32 (F := Ideal)) (W6_arg2 m ρ c) (W6_arg13 m ρ c)
  have eagg : V8 m ρ c main_v36
      = Cert.Gcn.aggCc (F := Ideal) (Cert.ReferenceIdeal.Read.val_main_v32 (F := Ideal) (m ((c : Thread nD τ).loc main_arg2)) (m ((c : Thread nD τ).loc main_arg13))) (m ((c : Thread nD τ).loc main_arg7)) (m ((c : Thread nD τ).loc main_arg8)) := by
    show StableHlo.after hostOps5 (W7 m ρ c) (Proc.devRef .tc main_v36) = _
    rw [host_agg_Cc (W7 m ρ c), eproj, W7_arg7 m ρ c, W7_arg8 m ρ c]
  have ebrow : V8 m ρ c main_v37 = Cert.ReferenceIdeal.Read.val_main_v43 (F := Ideal) (m ((c : Thread nD τ).loc main_arg14)) := by
    show StableHlo.after hostOps5 (W7 m ρ c) (Proc.devRef .tc main_v37) = _
    rw [host_brow_Cc (W7 m ρ c), W7_arg14 m ρ c]
  have ex : V8 m ρ c main_arg2 = (m ((c : Thread nD τ).loc main_arg2)) := W8_arg2 m ρ c
  rw [W9_v38, layer_Cc (V8 m ρ) c, eagg, ebrow, ex]
  exact (Cert.Gcn.val_main_v47_eq_layer _ _ _ _ _).symm

end Cert.KernelIdeal.Bridge

end
-- ==== Proof.lean ====
/-
  Three independent graph-convolution layers, `max (segment_sum ((x · W)[src], dst) + b) 0 + x` on graphs of 20000, 50000
  and 10000 nodes. The kernel program computes, per graph, the projection `x · W` in one Pallas kernel (blocks of 2000
  rows on the matrix unit; its bf16 casts are the identity on the extended reals) and the last step
  `max (agg + b) 0 + x` in another (blocks of 2000 rows, the bias a [1, 128] row), with the gather along the edges'
  sources and the scatter-add into the edges' targets between them on the host; the reference is the same layer in plain
  jnp. On the extended reals the two are literally the same function: a block of rows of a matrix product is the product
  of the block of rows, both products are the plain sum over the contraction index, the aggregation is the same two host
  operations on both sides, and the last step is pointwise. No law of real arithmetic beyond `0 + x = x` is used, so
  the precondition (finite inputs) is never opened. The ideal pass rewrote nothing (its ledger is empty), so the kernel
  program's idealization claim is trivial.

  Modules: Spec (the layer as whole-array functions over the reference's own operations), ProjMf / ProjBp / ProjCc (a
  projection kernel's output array is the host product of its operands as it finds them), LayerMf / LayerBp / LayerCc
  (a combine kernel's output array is the combine step of its operands as it finds them), Host (the host stretch
  between them), Fold (each buffer read back through the program to the launch memory or to the kernel that wrote it),
  NamedRun (the program's run with the three result buffers named), Results (the three results as the reference's
  functions of the arguments), LibMatmulRows (a plain matrix product read at an entry).
-/
import proofs.«109767_j9457517986562_1_alg».proof.Defs
import proofs.«109767_j9457517986562_1_alg».proof.Proof.Gen.Kernel
import proofs.«109767_j9457517986562_1_alg».proof.Proof.Gen.Kernel.Skeleton
import proofs.«109767_j9457517986562_1_alg».proof.Proof.Gen.Kernel.Launch
import proofs.«109767_j9457517986562_1_alg».proof.Proof.Gen.Kernel.Points
import proofs.«109767_j9457517986562_1_alg».proof.Proof.Gen.Kernel.Frame
import proofs.«109767_j9457517986562_1_alg».proof.Proof.Gen.KernelIdeal
import proofs.«109767_j9457517986562_1_alg».proof.Proof.Gen.KernelIdeal.Skeleton
import proofs.«109767_j9457517986562_1_alg».proof.Proof.Gen.KernelIdeal.Launch
import proofs.«109767_j9457517986562_1_alg».proof.Proof.Gen.KernelIdeal.Points
import proofs.«109767_j9457517986562_1_alg».proof.Proof.Gen.KernelIdeal.Frame
import proofs.«109767_j9457517986562_1_alg».proof.Proof.Gen.ReferenceIdeal
import proofs.«109767_j9457517986562_1_alg».proof.Proof.Gen.Pre_finite_inputs
import proofs.«109767_j9457517986562_1_alg».proof.Proof.Gen.ReferenceIdeal.Run
import proofs.«109767_j9457517986562_1_alg».proof.Proof.Gen.ReferenceIdeal.Read
import proofs.«109767_j9457517986562_1_alg».proof.Proof.NamedRun
import proofs.«109767_j9457517986562_1_alg».proof.Proof.Results
import Idealize.ShloMosaic.Adequacy
import Idealize.ShloMosaic.Init

set_option maxRecDepth 16384

noncomputable section

namespace Cert.Proof

open Idealize.ShloMosaic Idealize.ShloMosaic.TcCoe Idealize.SL.Sem

/-- The reference's result for a graph depends on its five arguments only: equal arguments, equal results. -/
theorem layer_congr {α β γ δ ε ζ : Type} (f : α → β → γ → δ → ε → ζ) {a a' : α} {b b' : β} {c c' : γ} {d d' : δ} {e e' : ε}
    (ha : a' = a) (hb : b' = b) (hc : c' = c) (hd : d' = d) (he : e' = e) : f a' b' c' d' e' = f a b c d e := by
  subst ha hb hc hd he; rfl

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- On the extended reals both programs end with each graph's layer of the arguments in its result buffer. -/
theorem algebraic : Cert.algebraic_KernelIdeal_ReferenceIdeal := by
  intro m ρ m' ρ' _ hagree
  refine ⟨fun c => Cert.ReferenceIdeal.Read.val_main_v15 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Read.val_main_v31 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.ReferenceIdeal.Read.val_main_v47 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono (fun r h c =>
      ⟨(h c).1.trans (Cert.KernelIdeal.Bridge.result_Mf m ρ c),
       (h c).2.1.trans (Cert.KernelIdeal.Bridge.result_Bp m ρ c),
       (h c).2.2.1.trans (Cert.KernelIdeal.Bridge.result_Cc m ρ c),
       (h c).2.2.2⟩) (Cert.KernelIdeal.Bridge.run_named (F := Ideal) m ρ)
  · refine (θ_run Cert.ReferenceIdeal.defs _ _).mono (fun r h c => ?_) (Cert.ReferenceIdeal.Value.run (F := Ideal) m' ρ')
    obtain ⟨h0, h1, h2, h3, h4, h5, h6, h7, h8, h9, h10, h11, h12, h13, h14⟩ := hagree c
    exact ⟨(h c).1.trans (layer_congr (Cert.ReferenceIdeal.Read.val_main_v15 (F := Ideal)) h0 h3 h4 h9 h10),
      (h c).2.1.trans (layer_congr (Cert.ReferenceIdeal.Read.val_main_v31 (F := Ideal)) h1 h5 h6 h11 h12),
      (h c).2.2.1.trans (layer_congr (Cert.ReferenceIdeal.Read.val_main_v47 (F := Ideal)) h2 h7 h8 h13 h14),
      (h c).2.2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
